-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg10 : FVec F S128x1 .f32) (main_arg11 : FVec F S1 .f32) (main_arg12 : FVec F S128x16 .f32) (main_arg13 : FVec F S16 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x16 .f32 := Host.absf main_arg12
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg13
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x1 .f32) (main_arg11 : FVec F S1 .f32) (main_arg12 : FVec F S128x16 .f32) (main_arg13 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_arg12 : FVec F S128x16 .f32) (main_arg13 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S1x1 : Shape := ⟨2, ![1, 1]⟩
abbrev S1600000x128 : Shape := ⟨2, ![1600000, 128]⟩
abbrev S4000x128 : Shape := ⟨2, ![4000, 128]⟩
abbrev S4000x1 : Shape := ⟨2, ![4000, 1]⟩
abbrev S4000 : Shape := ⟨1, ![4000]⟩
abbrev S1x16 : Shape := ⟨2, ![1, 16]⟩

abbrev nBuf : Space → Nat
  | .hbm => 89
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x16, .f32⟩
  | .hbm, ⟨13, _⟩ => ⟨S16, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S_, .f32⟩
  | .hbm, ⟨76, _⟩ => ⟨S128x128, .f32⟩
  | .hbm, ⟨77, _⟩ => ⟨S100000x1, .i32⟩
  | .hbm, ⟨78, _⟩ => ⟨S128x128, .f32⟩
  | .hbm, ⟨79, _⟩ => ⟨S_, .f32⟩
  | .hbm, ⟨80, _⟩ => ⟨S128x1, .f32⟩
  | .hbm, ⟨81, _⟩ => ⟨S100000x1, .i32⟩
  | .hbm, ⟨82, _⟩ => ⟨S128x1, .f32⟩
  | .hbm, ⟨83, _⟩ => ⟨S128x128, .f32⟩
  | .hbm, ⟨84, _⟩ => ⟨S128x128, .f32⟩
  | .hbm, ⟨85, _⟩ => ⟨S128x16, .f32⟩
  | .hbm, ⟨86, _⟩ => ⟨S1x16, .f32⟩
  | .hbm, ⟨87, _⟩ => ⟨S128x16, .f32⟩
  | .hbm, ⟨88, _⟩ => ⟨S128x16, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x1, .f32⟩
  | .local _ .vmem, ⟨30, _⟩ => ⟨S4000x1, .f32⟩
  | .local _ .vmem, ⟨31, _⟩ => ⟨S4000x1, .f32⟩
  | .local _ .vmem, ⟨32, _⟩ => ⟨S4000x128, .f32⟩
  | .local _ .vmem, ⟨33, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46_0 : Ref sig .tc := ⟨.hbm, 73, rfl⟩
abbrev main_v46_1 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S128x1_S1x128 : S128x1.ShapeCasts S1x128
  shapeCasts_S1_S1x1 : S1.ShapeCasts S1x1
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S128x128_S100000x1_S100000x128_1_0_0_1_wf : ScatterDims.WF S128x128 S100000x1 S100000x128 [1] [0] [0] 1
  scatter_S128x1_S100000x1_S100000x1_1_0_0_1_wf : ScatterDims.WF S128x1 S100000x1 S100000x1 [1] [0] [0] 1
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x1.size a ≤ S100000x1.size a
  hwx2_7 : ∀ i : grid2.Coords, EltTy.bits .f32 = 32 ∨ (Rect.block (s := S100000x1) S4000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S100000x128.size a
  hwx2_8 : ∀ i : grid2.Coords, EltTy.bits .f32 = 32 ∨ (Rect.block (s := S100000x128) S4000x128.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_v23) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_0) S4000x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v46_1) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x16 : Shape := ⟨2, ![128, 16]⟩
abbrev S16 : Shape := ⟨1, ![16]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩
abbrev S1x16 : Shape := ⟨2, ![1, 16]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S128x16, .f32⟩
  | .hbm, ⟨13, _⟩ => ⟨S16, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S100000x1, .f32⟩
  | .hbm, ⟨99, _⟩ => ⟨S1x1, .f32⟩
  | .hbm, ⟨100, _⟩ => ⟨S100000x1, .f32⟩
  | .hbm, ⟨101, _⟩ => ⟨S100000x1, .f32⟩
  | .hbm, ⟨102, _⟩ => ⟨S100000x1, .f32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S_, .f32⟩
  | .hbm, ⟨108, _⟩ => ⟨S100000x1, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S128x128, .f32⟩
  | .hbm, ⟨114, _⟩ => ⟨S100000x1, .i32⟩
  | .hbm, ⟨115, _⟩ => ⟨S128x128, .f32⟩
  | .hbm, ⟨116, _⟩ => ⟨S_, .f32⟩
  | .hbm, ⟨117, _⟩ => ⟨S128x1, .f32⟩
  | .hbm, ⟨118, _⟩ => ⟨S100000x1, .i32⟩
  | .hbm, ⟨119, _⟩ => ⟨S128x1, .f32⟩
  | .hbm, ⟨120, _⟩ => ⟨S128x128, .f32⟩
  | .hbm, ⟨121, _⟩ => ⟨S128x128, .f32⟩
  | .hbm, ⟨122, _⟩ => ⟨S128x16, .f32⟩
  | .hbm, ⟨123, _⟩ => ⟨S1x16, .f32⟩
  | .hbm, ⟨124, _⟩ => ⟨S128x16, .f32⟩
  | .hbm, ⟨125, _⟩ => ⟨S128x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call0_cst : Ref sig .tc := ⟨.hbm, 44, rfl⟩
abbrev main_call0_v0 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call1_cst : Ref sig .tc := ⟨.hbm, 71, rfl⟩
abbrev main_call1_v0 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_12 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_15 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S128x128 : S_.BroadcastsInDim S128x128 (![] : Fin 0 → Fin S128x128.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S128x128_S100000x1_S100000x128_1_0_0_1_wf : ScatterDims.WF S128x128 S100000x1 S100000x128 [1] [0] [0] 1
  scatter_S128x1_S100000x1_S100000x1_1_0_0_1_wf : ScatterDims.WF S128x1 S100000x1 S100000x1 [1] [0] [0] 1
  dot_S128x128_S128x16_S128x16_1_0_0_1_n_n_wf : DotDims.WF S128x128 S128x16 S128x16 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.KernelRun.lean ====
/-
  The kernel program's run, with its result read.

  The program is three tiled regions among four stretches of host operations. Its frame argument already follows the
  contents of every buffer from the launch through the seven segment boundaries; at the return every buffer holds what the
  last boundary's contents `W7` say. The frame claim reads only the fourteen argument arrays out of that fact. Here the
  same launch is read at the result buffer as well: the result array ends at `W7` of it, and the arguments end unchanged.
-/
import proofs.«100401_j12841952215815_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last boundary's
    contents of it, and the argument arrays end as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c)⟩)

end Cert.Sage.Run

end
-- ==== Proof.LibColumnLayout.lean ====
/-
  Column forms of two layout operations, read at an index.

  A reduction that keeps its axis (`keepdims`) yields a column `[a, 1]`: the reduced vector `[a]` cast to a column, and the column
  broadcast back across `b` lanes. Both read the operand at the row's index, whatever the unit coordinate.
-/
import Idealize.ShloMosaic.Lib.ValueIdx
import Idealize.ShloMosaic.Lib.Pipeline.Value

noncomputable section

namespace Cert.Lib.ColumnLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Lib.ColumnLayout

end
-- ==== Proof.RefAt.lean ====
import proofs.«100401_j12841952215815_1_alg».proof.Proof.Gen.ReferenceIdeal.Read
import Idealize.ShloMosaic.Lib.ValueIdx
import Idealize.ShloMosaic.PureOps.Ideal.Laws

/-!
# The reference's intermediate arrays, read at an index

The reference is a three-layer graph network followed by a scalar gate. With `agg` the sum of a
node's in-neighbours' features, `deg` its in-degree and `h` the current features, a layer is
`h' = ((agg + h) / (deg + 1)) · W + b`, followed by `max · 0` in the first two layers. The gate is
`1 / (1 + exp (-(h₃ · Wv + bv)))` and the result is `gate * h₃`.

Every statement below is at the ideal instance, where a float is an extended real, a matrix product is
the sum over the contracted axis, and the host's negate / exponential / divide are `-x`, `Ideal.exp x`
and `Ideal.div x y`. The in-degree array and the three neighbour-sum arrays stay opaque: they are read
at an index and nothing else is said about them.
-/

noncomputable section

namespace Cert.Sage.Ref

open Cert.ReferenceIdeal Cert.ReferenceIdeal.Read Idealize.ShloMosaic Idealize.ShloMosaic.ValueIdx

/-- The float constant `1.0`, kept as the word the program writes. -/
abbrev one32 : EReal := Ideal.ofBits .f32 0x3F800000#32

variable (x0 : (⟨S100000x128, .f32⟩ : BufTy).Contents (Elt Ideal)) (x1 x2 : (⟨S1600000, .i32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))

/-! ## Layer 1 -/

/-- `deg + 1`, broadcast along the feature axis (first copy). -/
theorem v18_at (n : Fin 100000) (k : Fin 128) :
    val_main_v18 (F := Ideal) x2 (ix2 n k) = val_main_v3 (F := Ideal) x2 (ix1 n) + one32 := by
  have h : idx_main_v17 (idx_main_v18 (ix2 n k)) = ix1 n :=
    funext fun a => Fin.ext (by match a with | ⟨0, _⟩ => rfl)
  rw [val_main_v18_apply, val_main_v17_apply, h, val_main_v16_apply, val_main_v15_apply,
    val_main_cst_3_apply]
  rfl

/-- The normalised input of the first matrix product: `(agg + h) / (deg + 1)`. -/
theorem v19_at (n : Fin 100000) (k : Fin 128) :
    val_main_v19 (F := Ideal) x0 x1 x2 (ix2 n k)
      = Ideal.div (val_main_v13 (F := Ideal) x0 x1 x2 (ix2 n k) + x0 (ix2 n k))
          (val_main_v3 (F := Ideal) x2 (ix1 n) + one32) := by
  rw [val_main_v19_apply, val_main_v14_apply, v18_at]
  rfl

/-- The first layer's bias, broadcast along the node axis. -/
theorem v22_at (n : Fin 100000) (q : Fin 128) :
    val_main_v22 (F := Ideal) x5 (ix2 n q) = x5 (ix1 q) := by
  have h : idx_main_v21 (idx_main_v22 (ix2 n q)) = ix1 q :=
    funext fun a => Fin.ext (by match a with | ⟨0, _⟩ => rfl)
  rw [val_main_v22_apply, val_main_v21_apply, h]

/-- The first matrix product. -/
theorem v20_at (n : Fin 100000) (q : Fin 128) :
    val_main_v20 (F := Ideal) x0 x1 x2 x4 (ix2 n q)
      = ∑ k : Fin 128, Ideal.div (val_main_v13 (F := Ideal) x0 x1 x2 (ix2 n k) + x0 (ix2 n k))
          (val_main_v3 (F := Ideal) x2 (ix1 n) + one32) * x4 (ix2 k q) := by
  rw [val_main_v20_apply]
  refine Finset.sum_congr rfl fun k _ => ?_
  have hl : lidx_main_v20 (ix2 n q) k = ix2 n k :=
    funext fun a => Fin.ext (by match a with | ⟨0, _⟩ => rfl | ⟨1, _⟩ => rfl)
  have hr : ridx_main_v20 (ix2 n q) k = ix2 k q :=
    funext fun a => Fin.ext (by match a with | ⟨0, _⟩ => rfl | ⟨1, _⟩ => rfl)
  rw [hl, hr, v19_at]

/-- The first layer's output: `max (((agg + h) / (deg + 1)) · W₁ + b₁) 0`. -/
theorem v24_at (n : Fin 100000) (q : Fin 128) :
    val_main_v24 (F := Ideal) x0 x1 x2 x4 x5 (ix2 n q)
      = max ((∑ k : Fin 128, Ideal.div (val_main_v13 (F := Ideal) x0 x1 x2 (ix2 n k) + x0 (ix2 n k))
          (val_main_v3 (F := Ideal) x2 (ix1 n) + one32) * x4 (ix2 k q)) + x5 (ix1 q)) 0 := by
  rw [val_main_v24_apply, val_main_v23_apply, v20_at, v22_at, val_main_call0_v0_apply,
    val_main_call0_cst_apply, Ideal.ofBits_def, Ideal.ofBits_zero_f32]
  rfl

/-! ## Layer 2 -/

/-- `deg + 1`, broadcast along the feature axis (second copy). -/
theorem v39_at (n : Fin 100000) (k : Fin 128) :
    val_main_v39 (F := Ideal) x2 (ix2 n k) = val_main_v3 (F := Ideal) x2 (ix1 n) + one32 := by
  have h : idx_main_v38 (idx_main_v39 (ix2 n k)) = ix1 n :=
    funext fun a => Fin.ext (by match a with | ⟨0, _⟩ => rfl)
  rw [val_main_v39_apply, val_main_v38_apply, h, val_main_v37_apply, val_main_v36_apply,
    val_main_cst_7_apply]
  rfl

/-- The normalised input of the second matrix product. -/
theorem v40_at (n : Fin 100000) (k : Fin 128) :
    val_main_v40 (F := Ideal) x0 x1 x2 x4 x5 (ix2 n k)
      = Ideal.div (val_main_v34 (F := Ideal) x0 x1 x2 x4 x5 (ix2 n k)
            + val_main_v24 (F := Ideal) x0 x1 x2 x4 x5 (ix2 n k))
          (val_main_v3 (F := Ideal) x2 (ix1 n) + one32) := by
  rw [val_main_v40_apply, val_main_v35_apply, v39_at]
  rfl

/-- The second layer's bias, broadcast along the node axis. -/
theorem v43_at (n : Fin 100000) (q : Fin 128) :
    val_main_v43 (F := Ideal) x7 (ix2 n q) = x7 (ix1 q) := by
  have h : idx_main_v42 (idx_main_v43 (ix2 n q)) = ix1 q :=
    funext fun a => Fin.ext (by match a with | ⟨0, _⟩ => rfl)
  rw [val_main_v43_apply, val_main_v42_apply, h]

/-- The second matrix product. -/
theorem v41_at (n : Fin 100000) (q : Fin 128) :
    val_main_v41 (F := Ideal) x0 x1 x2 x4 x5 x6 (ix2 n q)
      = ∑ k : Fin 128, Ideal.div (val_main_v34 (F := Ideal) x0 x1 x2 x4 x5 (ix2 n k)
            + val_main_v24 (F := Ideal) x0 x1 x2 x4 x5 (ix2 n k))
          (val_main_v3 (F := Ideal) x2 (ix1 n) + one32) * x6 (ix2 k q) := by
  rw [val_main_v41_apply]
  refine Finset.sum_congr rfl fun k _ => ?_
  have hl : lidx_main_v41 (ix2 n q) k = ix2 n k :=
    funext fun a => Fin.ext (by match a with | ⟨0, _⟩ => rfl | ⟨1, _⟩ => rfl)
  have hr : ridx_main_v41 (ix2 n q) k = ix2 k q :=
    funext fun a => Fin.ext (by match a with | ⟨0, _⟩ => rfl | ⟨1, _⟩ => rfl)
  rw [hl, hr, v40_at]

/-- The second layer's output: `max (((agg + h₁) / (deg + 1)) · W₂ + b₂) 0`. -/
theorem v45_at (n : Fin 100000) (q : Fin 128) :
    val_main_v45 (F := Ideal) x0 x1 x2 x4 x5 x6 x7 (ix2 n q)
      = max ((∑ k : Fin 128, Ideal.div (val_main_v34 (F := Ideal) x0 x1 x2 x4 x5 (ix2 n k)
            + val_main_v24 (F := Ideal) x0 x1 x2 x4 x5 (ix2 n k))
          (val_main_v3 (F := Ideal) x2 (ix1 n) + one32) * x6 (ix2 k q)) + x7 (ix1 q)) 0 := by
  rw [val_main_v45_apply, val_main_v44_apply, v41_at, v43_at, val_main_call1_v0_apply,
    val_main_call1_cst_apply, Ideal.ofBits_def, Ideal.ofBits_zero_f32]
  rfl

/-! ## Layer 3 -/

/-- `deg + 1`, broadcast along the feature axis (third copy). -/
theorem v60_at (n : Fin 100000) (k : Fin 128) :
    val_main_v60 (F := Ideal) x2 (ix2 n k) = val_main_v3 (F := Ideal) x2 (ix1 n) + one32 := by
  have h : idx_main_v59 (idx_main_v60 (ix2 n k)) = ix1 n :=
    funext fun a => Fin.ext (by match a with | ⟨0, _⟩ => rfl)
  rw [val_main_v60_apply, val_main_v59_apply, h, val_main_v58_apply, val_main_v57_apply,
    val_main_cst_11_apply]
  rfl

/-- The normalised input of the third matrix product. -/
theorem v61_at (n : Fin 100000) (k : Fin 128) :
    val_main_v61 (F := Ideal) x0 x1 x2 x4 x5 x6 x7 (ix2 n k)
      = Ideal.div (val_main_v55 (F := Ideal) x0 x1 x2 x4 x5 x6 x7 (ix2 n k)
            + val_main_v45 (F := Ideal) x0 x1 x2 x4 x5 x6 x7 (ix2 n k))
          (val_main_v3 (F := Ideal) x2 (ix1 n) + one32) := by
  rw [val_main_v61_apply, val_main_v56_apply, v60_at]
  rfl

/-- The third layer's bias, broadcast along the node axis. -/
theorem v64_at (n : Fin 100000) (q : Fin 128) :
    val_main_v64 (F := Ideal) x9 (ix2 n q) = x9 (ix1 q) := by
  have h : idx_main_v63 (idx_main_v64 (ix2 n q)) = ix1 q :=
    funext fun a => Fin.ext (by match a with | ⟨0, _⟩ => rfl)
  rw [val_main_v64_apply, val_main_v63_apply, h]

/-- The third matrix product. -/
theorem v62_at (n : Fin 100000) (q : Fin 128) :
    val_main_v62 (F := Ideal) x0 x1 x2 x4 x5 x6 x7 x8 (ix2 n q)
      = ∑ k : Fin 128, Ideal.div (val_main_v55 (F := Ideal) x0 x1 x2 x4 x5 x6 x7 (ix2 n k)
            + val_main_v45 (F := Ideal) x0 x1 x2 x4 x5 x6 x7 (ix2 n k))
          (val_main_v3 (F := Ideal) x2 (ix1 n) + one32) * x8 (ix2 k q) := by
  rw [val_main_v62_apply]
  refine Finset.sum_congr rfl fun k _ => ?_
  have hl : lidx_main_v62 (ix2 n q) k = ix2 n k :=
    funext fun a => Fin.ext (by match a with | ⟨0, _⟩ => rfl | ⟨1, _⟩ => rfl)
  have hr : ridx_main_v62 (ix2 n q) k = ix2 k q :=
    funext fun a => Fin.ext (by match a with | ⟨0, _⟩ => rfl | ⟨1, _⟩ => rfl)
  rw [hl, hr, v61_at]

/-- The third layer's output (no `max`): `((agg + h₂) / (deg + 1)) · W₃ + b₃`. -/
theorem v65_at (n : Fin 100000) (q : Fin 128) :
    val_main_v65 (F := Ideal) x0 x1 x2 x4 x5 x6 x7 x8 x9 (ix2 n q)
      = (∑ k : Fin 128, Ideal.div (val_main_v55 (F := Ideal) x0 x1 x2 x4 x5 x6 x7 (ix2 n k)
            + val_main_v45 (F := Ideal) x0 x1 x2 x4 x5 x6 x7 (ix2 n k))
          (val_main_v3 (F := Ideal) x2 (ix1 n) + one32) * x8 (ix2 k q)) + x9 (ix1 q) := by
  rw [val_main_v65_apply, v62_at, v64_at]
  rfl

/-! ## The gate and the result -/

/-- The gate's pre-activation: `h₃ · Wv + bv`. -/
theorem v69_at (n : Fin 100000) (u : Fin 1) :
    val_main_v69 (F := Ideal) x0 x1 x2 x4 x5 x6 x7 x8 x9 x10 x11 (ix2 n u)
      = (∑ k : Fin 128, val_main_v65 (F := Ideal) x0 x1 x2 x4 x5 x6 x7 x8 x9 (ix2 n k)
            * x10 (ix2 k (0 : Fin 1))) + x11 (ix1 (0 : Fin 1)) := by
  have hb : idx_main_v67 (idx_main_v68 (ix2 n u)) = ix1 (0 : Fin 1) :=
    funext fun a => Fin.ext (by match a with | ⟨0, _⟩ => rfl)
  have hu : u = 0 := Subsingleton.elim _ _
  subst hu
  rw [val_main_v69_apply, val_main_v66_apply, val_main_v68_apply, val_main_v67_apply, hb]
  refine congrArg (· + x11 (ix1 (0 : Fin 1))) (Finset.sum_congr rfl fun k _ => ?_)
  have hl : lidx_main_v66 (ix2 n (0 : Fin 1)) k = ix2 n k :=
    funext fun a => Fin.ext (by match a with | ⟨0, _⟩ => rfl | ⟨1, _⟩ => rfl)
  have hr : ridx_main_v66 (ix2 n (0 : Fin 1)) k = ix2 k (0 : Fin 1) :=
    funext fun a => Fin.ext (by match a with | ⟨0, _⟩ => rfl | ⟨1, _⟩ => rfl)
  rw [hl, hr]

/-- The gate: `1 / (1 + exp (-(h₃ · Wv + bv)))`. -/
theorem v75_at (n : Fin 100000) (u : Fin 1) :
    val_main_v75 (F := Ideal) x0 x1 x2 x4 x5 x6 x7 x8 x9 x10 x11 (ix2 n u)
      = Ideal.div one32 (one32 + Ideal.exp (-((∑ k : Fin 128,
            val_main_v65 (F := Ideal) x0 x1 x2 x4 x5 x6 x7 x8 x9 (ix2 n k)
              * x10 (ix2 k (0 : Fin 1))) + x11 (ix1 (0 : Fin 1))))) := by
  rw [val_main_v75_apply, val_main_v74_apply, val_main_cst_13_apply, val_main_v73_apply,
    val_main_v72_apply, val_main_cst_12_apply, val_main_v71_apply, val_main_v70_apply, v69_at,
    Ideal.hostDivf_def, Ideal.addf_def, Ideal.hostUnary_exp_def, Ideal.hostNegf_def, Ideal.negf_def,
    Ideal.ofBits_def]

/-- The result: the gate, broadcast along the feature axis, times the third layer's output. -/
theorem v77_at (n : Fin 100000) (q : Fin 128) :
    val_main_v77 (F := Ideal) x0 x1 x2 x4 x5 x6 x7 x8 x9 x10 x11 (ix2 n q)
      = val_main_v75 (F := Ideal) x0 x1 x2 x4 x5 x6 x7 x8 x9 x10 x11 (ix2 n (0 : Fin 1))
          * val_main_v65 (F := Ideal) x0 x1 x2 x4 x5 x6 x7 x8 x9 (ix2 n q) := by
  have h : idx_main_v76 (ix2 n q) = ix2 n (0 : Fin 1) :=
    funext fun a => Fin.ext (by match a with | ⟨0, _⟩ => rfl | ⟨1, _⟩ => rfl)
  rw [val_main_v77_apply, val_main_v76_apply, h]
  rfl

end Cert.Sage.Ref
-- ==== Proof.KernelBoundary.lean ====
/-
  What the kernel program's buffers hold at each segment boundary, in the reference's own terms.

  Both programs build the in-degree, the neighbour sums and the final pooling with the same host operations, so those
  stretches are carried as the reference's stage functions and never opened. The argument arrays and the small buffers the
  first stretch makes once (the scale column `1 / (deg + 1)`, the bias rows, the gate vector as a row, the gate offset) are
  followed unchanged through the later boundaries: a host stretch that does not write a buffer leaves it, a region that does
  not stage it leaves it, and a region that stages it as an input writes nothing back.
-/
import proofs.«100401_j12841952215815_1_alg».proof.Proof.Gen.KernelIdeal.Frame
import proofs.«100401_j12841952215815_1_alg».proof.Proof.Gen.ReferenceIdeal.Read
import proofs.«100401_j12841952215815_1_alg».proof.Proof.LibColumnLayout
import proofs.«100401_j12841952215815_1_alg».proof.Proof.RefAt
import Idealize.ShloMosaic.Lib.ValueLayout
import Idealize.ShloMosaic.Lib.StableHlo.Run

set_option maxRecDepth 16384

noncomputable section

namespace Cert.Sage.Boundary

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read (val_main_v3 val_main_v13 val_main_v24 val_main_v34 val_main_v45 val_main_v55 val_main_v65 val_main_v75 val_main_v77 val_main_v89)
open Cert.Sage.Ref (one32)

variable (m : (ℓ : Loc nD τ sig) → Buf (Elt Ideal) ℓ) (ρ : Dev nD → PrngReg) (c : Dev nD)

/-- A buffer that a host stretch does not write holds after it what it held before: the stretch's fold, read at that buffer,
    steps past every operation, so `W b = x` before the stretch gives `after ops W b = x` after it. -/
macro "carried_by " h:term : tactic => `(tactic| (after_results_simp; try exact $h))

/-- Argument 1 (edge sources) is written by no host operation and staged by no region: the boundaries up to the third
    region's entry hold it as launched. -/
theorem keep_arg1 :
    W1 m ρ c (Proc.devRef .tc main_arg1) = m ((c : Thread nD τ).loc main_arg1)
    ∧ W2 m ρ c (Proc.devRef .tc main_arg1) = m ((c : Thread nD τ).loc main_arg1)
    ∧ W3 m ρ c (Proc.devRef .tc main_arg1) = m ((c : Thread nD τ).loc main_arg1)
    ∧ W4 m ρ c (Proc.devRef .tc main_arg1) = m ((c : Thread nD τ).loc main_arg1) := by
  have h1 : W1 m ρ c (Proc.devRef .tc main_arg1) = m ((c : Thread nD τ).loc main_arg1) := by
    show StableHlo.after hostOps0 (W0 m ρ c) (Proc.devRef .tc main_arg1) = _
    carried_by rfl
  have h2 := (W2_of_ne m ρ c main_arg1 (by decide)).trans h1
  have h3 : W3 m ρ c (Proc.devRef .tc main_arg1) = m ((c : Thread nD τ).loc main_arg1) := by
    show StableHlo.after hostOps1 (W2 m ρ c) (Proc.devRef .tc main_arg1) = _
    carried_by h2
  have h4 := (W4_of_ne m ρ c main_arg1 (by decide)).trans h3
  exact ⟨h1, h2, h3, h4⟩

/-- Argument 2 (edge destinations), likewise. -/
theorem keep_arg2 :
    W1 m ρ c (Proc.devRef .tc main_arg2) = m ((c : Thread nD τ).loc main_arg2)
    ∧ W2 m ρ c (Proc.devRef .tc main_arg2) = m ((c : Thread nD τ).loc main_arg2)
    ∧ W3 m ρ c (Proc.devRef .tc main_arg2) = m ((c : Thread nD τ).loc main_arg2)
    ∧ W4 m ρ c (Proc.devRef .tc main_arg2) = m ((c : Thread nD τ).loc main_arg2) := by
  have h1 : W1 m ρ c (Proc.devRef .tc main_arg2) = m ((c : Thread nD τ).loc main_arg2) := by
    show StableHlo.after hostOps0 (W0 m ρ c) (Proc.devRef .tc main_arg2) = _
    carried_by rfl
  have h2 := (W2_of_ne m ρ c main_arg2 (by decide)).trans h1
  have h3 : W3 m ρ c (Proc.devRef .tc main_arg2) = m ((c : Thread nD τ).loc main_arg2) := by
    show StableHlo.after hostOps1 (W2 m ρ c) (Proc.devRef .tc main_arg2) = _
    carried_by h2
  have h4 := (W4_of_ne m ρ c main_arg2 (by decide)).trans h3
  exact ⟨h1, h2, h3, h4⟩

/-- An argument that only the last stretch reads (the graph ids, the head's weights and bias) reaches the third region's
    exit as launched. `hne` are the three facts that no region stages it. -/
theorem keep_to_exit (b : Ref sig .tc)
    (h1 : W1 m ρ c (Proc.devRef .tc b) = m ((c : Thread nD τ).loc b))
    (h3 : W2 m ρ c (Proc.devRef .tc b) = m ((c : Thread nD τ).loc b) → W3 m ρ c (Proc.devRef .tc b) = m ((c : Thread nD τ).loc b))
    (h5 : W4 m ρ c (Proc.devRef .tc b) = m ((c : Thread nD τ).loc b) → W5 m ρ c (Proc.devRef .tc b) = m ((c : Thread nD τ).loc b))
    (n0 : ∀ w, Pipeline.arrRef spec0 w ≠ b) (n1 : ∀ w, Pipeline.arrRef spec1 w ≠ b) (n2 : ∀ w, Pipeline.arrRef spec2 w ≠ b) :
    W6 m ρ c (Proc.devRef .tc b) = m ((c : Thread nD τ).loc b) :=
  (W6_of_ne m ρ c b n2).trans (h5 ((W4_of_ne m ρ c b n1).trans (h3 ((W2_of_ne m ρ c b n0).trans h1))))

theorem w6_arg3 : W6 m ρ c (Proc.devRef .tc main_arg3) = m ((c : Thread nD τ).loc main_arg3) :=
  keep_to_exit m ρ c main_arg3
    (by show StableHlo.after hostOps0 (W0 m ρ c) (Proc.devRef .tc main_arg3) = _; carried_by rfl)
    (fun h => by show StableHlo.after hostOps1 (W2 m ρ c) (Proc.devRef .tc main_arg3) = _; carried_by h)
    (fun h => by show StableHlo.after hostOps2 (W4 m ρ c) (Proc.devRef .tc main_arg3) = _; carried_by h)
    (by decide) (by decide) (by decide)
theorem w6_arg12 : W6 m ρ c (Proc.devRef .tc main_arg12) = m ((c : Thread nD τ).loc main_arg12) :=
  keep_to_exit m ρ c main_arg12
    (by show StableHlo.after hostOps0 (W0 m ρ c) (Proc.devRef .tc main_arg12) = _; carried_by rfl)
    (fun h => by show StableHlo.after hostOps1 (W2 m ρ c) (Proc.devRef .tc main_arg12) = _; carried_by h)
    (fun h => by show StableHlo.after hostOps2 (W4 m ρ c) (Proc.devRef .tc main_arg12) = _; carried_by h)
    (by decide) (by decide) (by decide)
theorem w6_arg13 : W6 m ρ c (Proc.devRef .tc main_arg13) = m ((c : Thread nD τ).loc main_arg13) :=
  keep_to_exit m ρ c main_arg13
    (by show StableHlo.after hostOps0 (W0 m ρ c) (Proc.devRef .tc main_arg13) = _; carried_by rfl)
    (fun h => by show StableHlo.after hostOps1 (W2 m ρ c) (Proc.devRef .tc main_arg13) = _; carried_by h)
    (fun h => by show StableHlo.after hostOps2 (W4 m ρ c) (Proc.devRef .tc main_arg13) = _; carried_by h)
    (by decide) (by decide) (by decide)

/-- The first stretch leaves the node features and the first weight matrix as launched. -/
theorem w1_arg0 : W1 m ρ c (Proc.devRef .tc main_arg0) = m ((c : Thread nD τ).loc main_arg0) := by
  show StableHlo.after hostOps0 (W0 m ρ c) (Proc.devRef .tc main_arg0) = _
  carried_by rfl
theorem w1_arg4 : W1 m ρ c (Proc.devRef .tc main_arg4) = m ((c : Thread nD τ).loc main_arg4) := by
  show StableHlo.after hostOps0 (W0 m ρ c) (Proc.devRef .tc main_arg4) = _
  carried_by rfl

/-- After the first stretch the neighbour-sum buffer holds the reference's first neighbour sums. -/
theorem w1_v23 : W1 m ρ c (Proc.devRef .tc main_v23)
    = val_main_v13 (F := Ideal) (m ((c : Thread nD τ).loc main_arg0)) (m ((c : Thread nD τ).loc main_arg1)) (m ((c : Thread nD τ).loc main_arg2)) := by
  show StableHlo.after hostOps0 (W0 m ρ c) (Proc.devRef .tc main_v23) = _
  after_results_simp
  rfl

/-- The in-degree scatter of the kernel program is the reference's in-degree stage of the same destinations. -/
theorem deg_fold : Host.scatterAdd scatter_S100000_S1600000x1_S1600000_n_0_0_1
        (broadcastInDim S100000 ![] bcast_S_S100000 (constant (F := Ideal) S_ .f32 0#32))
        (broadcastInDim S1600000x1 ![0] bcast_S1600000_S1600000x1_0 (W0 m ρ c (Proc.devRef .tc main_arg2)))
        (broadcastInDim S1600000 ![] bcast_S_S1600000 (constant (F := Ideal) S_ .f32 1065353216#32))
      = val_main_v3 (F := Ideal) (m ((c : Thread nD τ).loc main_arg2)) := rfl

/-- The quotient of the constant one by `D + 1`, read at `n`. -/
theorem recip_at (D : S100000.Idx → EReal) (n : Fin 100000) :
    FloatOps.hostDivf (broadcastInDim S100000 ![] bcast_S_S100000 (constant (F := Ideal) S_ .f32 1065353216#32) (ix1 n))
      (FloatOps.addf (D (ix1 n)) (broadcastInDim S100000 ![] bcast_S_S100000 (constant (F := Ideal) S_ .f32 1065353216#32) (ix1 n)))
      = Ideal.div one32 (D (ix1 n) + one32) := by
  rw [broadcastInDim_apply _ bcast_S_S100000 _ (ix1 n) ix0 (fun a => a.elim0)]
  rfl

/-- Its column form, read at `(n, u)`. -/
theorem recip_col_at (D : S100000.Idx → EReal) (n : Fin 100000) (u : Fin 1) :
    shapeCast S100000x1 (Host.divf (F := Ideal) (broadcastInDim S100000 ![] bcast_S_S100000 (constant (F := Ideal) S_ .f32 1065353216#32))
        (addf D (broadcastInDim S100000 ![] bcast_S_S100000 (constant (F := Ideal) S_ .f32 1065353216#32)))) shapeCasts_S100000_S100000x1 (ix2 n u)
      = Ideal.div one32 (D (ix1 n) + one32) :=
  (Cert.Lib.ColumnLayout.shapeCast_a_a1_apply _ shapeCasts_S100000_S100000x1 n u).trans (recip_at D n)

/-- After the first stretch the scale column holds, at node `n`, the reciprocal of the in-degree plus one. -/
theorem w1_v8_at (n : Fin 100000) (u : Fin 1) :
    (W1 m ρ c (Proc.devRef .tc main_v8) : S100000x1.Idx → EReal) (ix2 n u)
      = Ideal.div one32 (val_main_v3 (F := Ideal) (m ((c : Thread nD τ).loc main_arg2)) (ix1 n) + one32) := by
  show StableHlo.after hostOps0 (W0 m ρ c) (Proc.devRef .tc main_v8) (ix2 n u) = _
  after_results_simp
  rw [deg_fold m ρ c]
  exact recip_col_at _ n u

/-- A bias vector `[128]` reshaped to a row `[1, 128]`: the first layer's. -/
theorem w1_v9_at (u : Fin 1) (q : Fin 128) :
    (W1 m ρ c (Proc.devRef .tc main_v9) : S1x128.Idx → EReal) (ix2 u q) = (m ((c : Thread nD τ).loc main_arg5) : S128.Idx → EReal) (ix1 q) := by
  show StableHlo.after hostOps0 (W0 m ρ c) (Proc.devRef .tc main_v9) (ix2 u q) = _
  after_results_simp
  exact shapeCast_a_1a_apply _ shapeCasts_S128_S1x128 u q

end Cert.Sage.Boundary

end
-- ==== Proof.SmallBuffers.lean ====
/-
  The small buffers the first host stretch makes once, and two weight arguments, followed to the region that stages them.

  The first stretch makes the scale column 1 / (deg + 1), the later layers' bias rows (a [128] vector recast as [1, 128]),
  the gate vector as a row (a column [128, 1] recast as [1, 128]) and the gate offset (a single value recast as [1, 1]).
  None of them is written again: a host stretch that does not write a buffer leaves it, a region that does not stage it
  leaves it, and a region that stages it as an input writes nothing back. So at the entry of the region that reads it each
  buffer is still what the first stretch made, and read at an index it is the launched argument at the index with the same
  row-major position. The two later weight matrices are arguments no stretch writes; they reach their region as launched.
-/
import proofs.«100401_j12841952215815_1_alg».proof.Proof.KernelBoundary

set_option maxRecDepth 16384

noncomputable section

namespace Cert.Sage.Small

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read (val_main_v3 val_main_v13 val_main_v24 val_main_v34 val_main_v45 val_main_v55 val_main_v65 val_main_v75 val_main_v77 val_main_v89)
open Cert.Sage.Ref (one32)
open Cert.Sage.Boundary

/-- A column [a, 1] recast as a row [1, a] reads, at (u, i), the column at (i, 0): both have the same row-major
    position i. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A single value [1] recast as [1, 1] reads that value at its only index. -/
theorem shapeCast_1_11_apply {α : Type} (x : (⟨1, ![1]⟩ : Shape).Idx → α)
    (h : (⟨1, ![1]⟩ : Shape).ShapeCasts ⟨2, ![1, 1]⟩) (u u' : Fin 1) :
    shapeCast ⟨2, ![1, 1]⟩ x h (ix2 u u') = x (ix1 (0 : Fin 1)) := by
  obtain rfl : u' = 0 := Subsingleton.elim _ _
  exact shapeCast_a_1a_apply x h u 0

variable (m : (ℓ : Loc nD τ sig) → Buf (Elt Ideal) ℓ) (ρ : Dev nD → PrngReg) (c : Dev nD)

/-! ## The two later weight matrices -/

/-- The second layer's weight matrix reaches the second region's entry as launched: no host operation writes it and the
    first region does not stage it. -/
theorem w3_arg6 : W3 m ρ c (Proc.devRef .tc main_arg6) = m ((c : Thread nD τ).loc main_arg6) := by
  have h1 : W1 m ρ c (Proc.devRef .tc main_arg6) = m ((c : Thread nD τ).loc main_arg6) := by
    show StableHlo.after hostOps0 (W0 m ρ c) (Proc.devRef .tc main_arg6) = _
    carried_by rfl
  have h2 := (W2_of_ne m ρ c main_arg6 (by decide)).trans h1
  show StableHlo.after hostOps1 (W2 m ρ c) (Proc.devRef .tc main_arg6) = _
  carried_by h2

/-- The final layer's weight matrix reaches the third region's entry as launched. -/
theorem w5_arg8 : W5 m ρ c (Proc.devRef .tc main_arg8) = m ((c : Thread nD τ).loc main_arg8) := by
  have h1 : W1 m ρ c (Proc.devRef .tc main_arg8) = m ((c : Thread nD τ).loc main_arg8) := by
    show StableHlo.after hostOps0 (W0 m ρ c) (Proc.devRef .tc main_arg8) = _
    carried_by rfl
  have h2 := (W2_of_ne m ρ c main_arg8 (by decide)).trans h1
  have h3 : W3 m ρ c (Proc.devRef .tc main_arg8) = m ((c : Thread nD τ).loc main_arg8) := by
    show StableHlo.after hostOps1 (W2 m ρ c) (Proc.devRef .tc main_arg8) = _
    carried_by h2
  have h4 := (W4_of_ne m ρ c main_arg8 (by decide)).trans h3
  show StableHlo.after hostOps2 (W4 m ρ c) (Proc.devRef .tc main_arg8) = _
  carried_by h4

/-! ## The scale column -/

/-- The second stretch does not write the scale column. -/
theorem w3_v8_of (x : Buf (Elt Ideal) ((c : Thread nD τ).loc main_v8)) (h : W2 m ρ c (Proc.devRef .tc main_v8) = x) :
    W3 m ρ c (Proc.devRef .tc main_v8) = x := by
  show StableHlo.after hostOps1 (W2 m ρ c) (Proc.devRef .tc main_v8) = _
  carried_by h

/-- Nor does the third. -/
theorem w5_v8_of (x : Buf (Elt Ideal) ((c : Thread nD τ).loc main_v8)) (h : W4 m ρ c (Proc.devRef .tc main_v8) = x) :
    W5 m ρ c (Proc.devRef .tc main_v8) = x := by
  show StableHlo.after hostOps2 (W4 m ρ c) (Proc.devRef .tc main_v8) = _
  carried_by h

/-- The scale column at the second region's entry is the one the first stretch made: the first region stages it as an
    input and writes nothing back. -/
theorem w3_v8 : W3 m ρ c (Proc.devRef .tc main_v8) = W1 m ρ c (Proc.devRef .tc main_v8) :=
  w3_v8_of m ρ c _ ((W2_arr m ρ c 2).trans (((dat0 (V1 m ρ) c).arrAt_in 2 rfl _).trans (A_eq0 (V1 m ρ) c 2)))

/-- And at the third region's entry: the second region stages it as an input too. -/
theorem w5_v8 : W5 m ρ c (Proc.devRef .tc main_v8) = W1 m ρ c (Proc.devRef .tc main_v8) :=
  w5_v8_of m ρ c _ (((W4_arr m ρ c 2).trans (((dat1 (V3 m ρ) c).arrAt_in 2 rfl _).trans (A_eq1 (V3 m ρ) c 2))).trans (w3_v8 m ρ c))

/-- At the second region's entry the scale column holds, at node n, the reciprocal of the in-degree plus one. -/
theorem w3_v8_at (n : Fin 100000) (u : Fin 1) :
    (W3 m ρ c (Proc.devRef .tc main_v8) : S100000x1.Idx → EReal) (ix2 n u)
      = Ideal.div one32 (val_main_v3 (F := Ideal) (m ((c : Thread nD τ).loc main_arg2)) (ix1 n) + one32) :=
  (congrArg (fun f : S100000x1.Idx → EReal => f (ix2 n u)) (w3_v8 m ρ c)).trans (w1_v8_at m ρ c n u)

/-- At the third region's entry likewise. -/
theorem w5_v8_at (n : Fin 100000) (u : Fin 1) :
    (W5 m ρ c (Proc.devRef .tc main_v8) : S100000x1.Idx → EReal) (ix2 n u)
      = Ideal.div one32 (val_main_v3 (F := Ideal) (m ((c : Thread nD τ).loc main_arg2)) (ix1 n) + one32) :=
  (congrArg (fun f : S100000x1.Idx → EReal => f (ix2 n u)) (w5_v8 m ρ c)).trans (w1_v8_at m ρ c n u)

/-! ## The second layer's bias row -/

/-- The first stretch makes the second layer's bias row from the bias vector: a [128] vector recast as [1, 128]. -/
theorem w1_v10_at (u : Fin 1) (q : Fin 128) :
    (W1 m ρ c (Proc.devRef .tc main_v10) : S1x128.Idx → EReal) (ix2 u q) = (m ((c : Thread nD τ).loc main_arg7) : S128.Idx → EReal) (ix1 q) := by
  show StableHlo.after hostOps0 (W0 m ρ c) (Proc.devRef .tc main_v10) (ix2 u q) = _
  after_results_simp
  exact shapeCast_a_1a_apply _ shapeCasts_S128_S1x128 u q

/-- The second stretch does not write it. -/
theorem w3_v10_of (x : Buf (Elt Ideal) ((c : Thread nD τ).loc main_v10)) (h : W2 m ρ c (Proc.devRef .tc main_v10) = x) :
    W3 m ρ c (Proc.devRef .tc main_v10) = x := by
  show StableHlo.after hostOps1 (W2 m ρ c) (Proc.devRef .tc main_v10) = _
  carried_by h

/-- At the second region's entry the bias row still reads the bias vector: the first region does not stage it. -/
theorem w3_v10_at (u : Fin 1) (q : Fin 128) :
    (W3 m ρ c (Proc.devRef .tc main_v10) : S1x128.Idx → EReal) (ix2 u q) = (m ((c : Thread nD τ).loc main_arg7) : S128.Idx → EReal) (ix1 q) :=
  (congrArg (fun f : S1x128.Idx → EReal => f (ix2 u q)) (w3_v10_of m ρ c _ (W2_of_ne m ρ c main_v10 (by decide)))).trans (w1_v10_at m ρ c u q)

/-! ## The final layer's bias row -/

/-- The first stretch makes the final layer's bias row from the bias vector: a [128] vector recast as [1, 128]. -/
theorem w1_v11_at (u : Fin 1) (q : Fin 128) :
    (W1 m ρ c (Proc.devRef .tc main_v11) : S1x128.Idx → EReal) (ix2 u q) = (m ((c : Thread nD τ).loc main_arg9) : S128.Idx → EReal) (ix1 q) := by
  show StableHlo.after hostOps0 (W0 m ρ c) (Proc.devRef .tc main_v11) (ix2 u q) = _
  after_results_simp
  exact shapeCast_a_1a_apply _ shapeCasts_S128_S1x128 u q

/-- The second stretch does not write it. -/
theorem w3_v11_of (x : Buf (Elt Ideal) ((c : Thread nD τ).loc main_v11)) (h : W2 m ρ c (Proc.devRef .tc main_v11) = x) :
    W3 m ρ c (Proc.devRef .tc main_v11) = x := by
  show StableHlo.after hostOps1 (W2 m ρ c) (Proc.devRef .tc main_v11) = _
  carried_by h

/-- Nor does the third. -/
theorem w5_v11_of (x : Buf (Elt Ideal) ((c : Thread nD τ).loc main_v11)) (h : W4 m ρ c (Proc.devRef .tc main_v11) = x) :
    W5 m ρ c (Proc.devRef .tc main_v11) = x := by
  show StableHlo.after hostOps2 (W4 m ρ c) (Proc.devRef .tc main_v11) = _
  carried_by h

/-- Neither of the first two regions stages it, so at the third region's entry it is the buffer the first stretch made. -/
theorem w5_v11 : W5 m ρ c (Proc.devRef .tc main_v11) = W1 m ρ c (Proc.devRef .tc main_v11) :=
  w5_v11_of m ρ c _ ((W4_of_ne m ρ c main_v11 (by decide)).trans
    (w3_v11_of m ρ c _ (W2_of_ne m ρ c main_v11 (by decide))))

/-- At the third region's entry the final layer's bias row reads the bias vector. -/
theorem w5_v11_at (u : Fin 1) (q : Fin 128) :
    (W5 m ρ c (Proc.devRef .tc main_v11) : S1x128.Idx → EReal) (ix2 u q) = (m ((c : Thread nD τ).loc main_arg9) : S128.Idx → EReal) (ix1 q) :=
  (congrArg (fun f : S1x128.Idx → EReal => f (ix2 u q)) (w5_v11 m ρ c)).trans (w1_v11_at m ρ c u q)

/-! ## The gate vector as a row -/

/-- The first stretch lays the gate vector, a column [128, 1], out as a row [1, 128]. -/
theorem w1_v12_at (u : Fin 1) (k : Fin 128) :
    (W1 m ρ c (Proc.devRef .tc main_v12) : S1x128.Idx → EReal) (ix2 u k) = (m ((c : Thread nD τ).loc main_arg10) : S128x1.Idx → EReal) (ix2 k (0 : Fin 1)) := by
  show StableHlo.after hostOps0 (W0 m ρ c) (Proc.devRef .tc main_v12) (ix2 u k) = _
  after_results_simp
  exact shapeCast_a1_1a_apply _ shapeCasts_S128x1_S1x128 u k

/-- The second stretch does not write it. -/
theorem w3_v12_of (x : Buf (Elt Ideal) ((c : Thread nD τ).loc main_v12)) (h : W2 m ρ c (Proc.devRef .tc main_v12) = x) :
    W3 m ρ c (Proc.devRef .tc main_v12) = x := by
  show StableHlo.after hostOps1 (W2 m ρ c) (Proc.devRef .tc main_v12) = _
  carried_by h

/-- Nor does the third. -/
theorem w5_v12_of (x : Buf (Elt Ideal) ((c : Thread nD τ).loc main_v12)) (h : W4 m ρ c (Proc.devRef .tc main_v12) = x) :
    W5 m ρ c (Proc.devRef .tc main_v12) = x := by
  show StableHlo.after hostOps2 (W4 m ρ c) (Proc.devRef .tc main_v12) = _
  carried_by h

/-- Neither of the first two regions stages it, so at the third region's entry it is the buffer the first stretch made. -/
theorem w5_v12 : W5 m ρ c (Proc.devRef .tc main_v12) = W1 m ρ c (Proc.devRef .tc main_v12) :=
  w5_v12_of m ρ c _ ((W4_of_ne m ρ c main_v12 (by decide)).trans
    (w3_v12_of m ρ c _ (W2_of_ne m ρ c main_v12 (by decide))))

/-- At the third region's entry the gate row reads the gate vector: lane k is the column's entry k. -/
theorem w5_v12_at (u : Fin 1) (k : Fin 128) :
    (W5 m ρ c (Proc.devRef .tc main_v12) : S1x128.Idx → EReal) (ix2 u k) = (m ((c : Thread nD τ).loc main_arg10) : S128x1.Idx → EReal) (ix2 k (0 : Fin 1)) :=
  (congrArg (fun f : S1x128.Idx → EReal => f (ix2 u k)) (w5_v12 m ρ c)).trans (w1_v12_at m ρ c u k)

/-! ## The gate offset -/

/-- The first stretch recasts the gate offset, a single value [1], as [1, 1]. -/
theorem w1_v13_at (u u' : Fin 1) :
    (W1 m ρ c (Proc.devRef .tc main_v13) : S1x1.Idx → EReal) (ix2 u u') = (m ((c : Thread nD τ).loc main_arg11) : S1.Idx → EReal) (ix1 (0 : Fin 1)) := by
  show StableHlo.after hostOps0 (W0 m ρ c) (Proc.devRef .tc main_v13) (ix2 u u') = _
  after_results_simp
  exact shapeCast_1_11_apply _ shapeCasts_S1_S1x1 u u'

/-- The second stretch does not write it. -/
theorem w3_v13_of (x : Buf (Elt Ideal) ((c : Thread nD τ).loc main_v13)) (h : W2 m ρ c (Proc.devRef .tc main_v13) = x) :
    W3 m ρ c (Proc.devRef .tc main_v13) = x := by
  show StableHlo.after hostOps1 (W2 m ρ c) (Proc.devRef .tc main_v13) = _
  carried_by h

/-- Nor does the third. -/
theorem w5_v13_of (x : Buf (Elt Ideal) ((c : Thread nD τ).loc main_v13)) (h : W4 m ρ c (Proc.devRef .tc main_v13) = x) :
    W5 m ρ c (Proc.devRef .tc main_v13) = x := by
  show StableHlo.after hostOps2 (W4 m ρ c) (Proc.devRef .tc main_v13) = _
  carried_by h

/-- Neither of the first two regions stages it, so at the third region's entry it is the buffer the first stretch made. -/
theorem w5_v13 : W5 m ρ c (Proc.devRef .tc main_v13) = W1 m ρ c (Proc.devRef .tc main_v13) :=
  w5_v13_of m ρ c _ ((W4_of_ne m ρ c main_v13 (by decide)).trans
    (w3_v13_of m ρ c _ (W2_of_ne m ρ c main_v13 (by decide))))

/-- At the third region's entry the gate offset reads the launched value. -/
theorem w5_v13_at (u u' : Fin 1) :
    (W5 m ρ c (Proc.devRef .tc main_v13) : S1x1.Idx → EReal) (ix2 u u') = (m ((c : Thread nD τ).loc main_arg11) : S1.Idx → EReal) (ix1 (0 : Fin 1)) :=
  (congrArg (fun f : S1x1.Idx → EReal => f (ix2 u u')) (w5_v13 m ρ c)).trans (w1_v13_at m ρ c u u')

end Cert.Sage.Small

end
-- ==== Proof.PayloadAt.lean ====
/-
  The three kernel bodies' stored values, read at one index, at the ideal instance.

  At the ideal instance a float is an extended real and every operation is exact: narrowing to a shorter format is the
  identity, and a block product into a zero accumulator is the plain sum over the contracted axis. Each body computes the
  same affine stage from five blocks: the neighbour sums x0 and the features x1 (both [4000, 128]) are added, row p is
  scaled by the entry x2 (p, 0) of a scale column, the result is multiplied by the weights x3 ([128, 128]) and the bias
  row x4 ([1, 128]) is added:

      A (p, q) = (∑ k, ((x0 (p, k) + x1 (p, k)) * x2 (p, 0)) * x3 (k, q)) + x4 (0, q).

  The two layer bodies store max (A (p, q)) 0. The final body stores a gate column
  g (p) = logistic ((∑ k, A (p, k) * x5 (0, k)) + x6 (0, 0)), for a gate row x5 and a single offset x6, and the gated block
  g (p) * A (p, q).
-/
import proofs.«100401_j12841952215815_1_alg».proof.Proof.Gen.KernelIdeal.Skeleton
import proofs.«100401_j12841952215815_1_alg».proof.Proof.LibColumnLayout
import Idealize.ShloMosaic.Lib.ValueIdx
import Idealize.ShloMosaic.Lib.Pipeline.Value
import Idealize.ShloMosaic.Lib.ValueLayout
import Idealize.ShloMosaic.PureOps.Ideal.Laws
noncomputable section
namespace Cert.Sage.Payload
open Cert.KernelIdeal Cert.KernelIdeal.Gen Idealize.ShloMosaic Idealize.ShloMosaic.ValueIdx

/-- The dimension numbers of the block product: rows by contraction times contraction by columns, no batch axis. -/
abbrev blockDot : DotDims S4000x128 S128x128 S4000x128 := dot_S4000x128_S128x128_S4000x128_1_0_0_1_n_n

/-- A [4000,128] by [128,128] product into a zero accumulator, read at row p and column q: the sum over the
    shared axis of the left operand's row p against the right operand's column q. -/
theorem matmul_zero_at {φ₁ φ₂ : FTy} (lhs : FVec Ideal S4000x128 φ₁) (rhs : FVec Ideal S128x128 φ₂) (p : Fin 4000) (q : Fin 128) :
    FloatOps.matmul blockDot none lhs rhs (constant (F := Ideal) S4000x128 .f32 0x00000000#32) (ix2 p q)
      = ∑ k : Fin 128, lhs (ix2 p k) * rhs (ix2 k q) := by
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ =>
      show (blockDot.lhsIdx (ix2 p q) _ 0).val = p.val
      unfold DotDims.lhsIdx
      rw [dif_neg (show ¬(0 : Fin S4000x128.rank) ∈ blockDot.lhsBatch by decide), dif_pos (show (0 : Fin S4000x128.rank) ∈ blockDot.lhsNonContracting by decide)]
      rfl
    | ⟨1, _⟩ => exact (blockDot.lhsIdx_val_of_single rfl (ix2 p q) _).trans hk)
  have er : blockDot.rhsIdx (ix2 p q) ((contrEquiv1 blockDot 128 rfl rfl).symm k) = ix2 k q := funext fun a => Fin.ext (by
    match a with
    | ⟨0, _⟩ => exact (blockDot.rhsIdx_val_of_single rfl (ix2 p q) _).trans hk
    | ⟨1, _⟩ =>
      show (blockDot.rhsIdx (ix2 p q) _ 1).val = q.val
      unfold DotDims.rhsIdx
      rw [dif_neg (show ¬(1 : Fin S128x128.rank) ∈ blockDot.rhsBatch by decide), dif_pos (show (1 : Fin S128x128.rank) ∈ blockDot.rhsNonContracting by decide)]
      rfl)
  rw [el, er]

open Cert.Lib.ColumnLayout

/-- A single value [1, 1] broadcast down a column [a, 1] reads that value at every row. -/
theorem broadcastTo_11_a1_apply {α : Type} {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else u.val
    rw [if_pos rfl]

/-- The affine core shared by the three kernel bodies, read at row p and column q: the two input blocks are added,
    every row is scaled by its entry of the scale column, the scaled block is multiplied by the weights (exactly: at the
    ideal values the narrowing of both operands is the identity and the zero accumulator adds nothing), and the bias row
    is added to every row. -/
theorem affine_at (a b : FVec Ideal S4000x128 .f32) (c : FVec Ideal S4000x1 .f32) (w : FVec Ideal S128x128 .f32)
    (r : FVec Ideal S1x128 .f32) (hc : S4000x1.Broadcasts S4000x128) (hr : S1x128.Broadcasts S4000x128)
    (ht : FTy.bits .bf16 < FTy.bits .f32) (p : Fin 4000) (q : Fin 128) :
    addf (matmul blockDot none (truncf .bf16 (mulf (addf a b) (broadcastTo S4000x128 c hc)) ht) (truncf .bf16 w ht)
        (constant (F := Ideal) S4000x128 .f32 0x00000000#32)) (broadcastTo S4000x128 r hr) (ix2 p q)
      = (∑ k : Fin 128, ((a (ix2 p k) + b (ix2 p k)) * c (ix2 p (0 : Fin 1))) * w (ix2 k q)) + r (ix2 (0 : Fin 1) q) := by
  rw [addf_apply]
  refine congrArg₂ (· + ·) ?_ (broadcastTo_1b_ab_apply r hr p q)
  refine (matmul_zero_at _ _ p q).trans (Finset.sum_congr rfl fun k _ => ?_)
  rw [truncf_apply, truncf_apply, mulf_apply, addf_apply, broadcastTo_a1_ab_apply c hc p k]

/-- The last body's affine stage read at row p and column q: neighbour sums plus features, scaled by the row's entry of
    the scale column, times the weights, plus the bias row. -/
theorem k2_pay1_at (x0 x1 : Vec Ideal S4000x128 .f32) (x2 : Vec Ideal S4000x1 .f32) (x3 : Vec Ideal S128x128 .f32)
    (x4 : Vec Ideal S1x128 .f32) (p : Fin 4000) (q : Fin 128) :
    k2_pay1 (F := Ideal) x0 x1 x2 x3 x4 (ix2 p q)
      = (∑ k : Fin 128, ((x0 (ix2 p k) + x1 (ix2 p k)) * x2 (ix2 p (0 : Fin 1))) * x3 (ix2 k q)) + x4 (ix2 (0 : Fin 1) q) := by
  unfold k2_pay1
  simp only [shapeCast_self]
  exact affine_at x0 x1 x2 x3 x4 _ _ _ p q

/-- The second layer body's stored value read at row p and column q: the affine stage clamped below at zero. -/
theorem k1_pay1_at (x0 x1 : Vec Ideal S4000x128 .f32) (x2 : Vec Ideal S4000x1 .f32) (x3 : Vec Ideal S128x128 .f32)
    (x4 : Vec Ideal S1x128 .f32) (p : Fin 4000) (q : Fin 128) :
    k1_pay1 (F := Ideal) x0 x1 x2 x3 x4 (ix2 p q)
      = max ((∑ k : Fin 128, ((x0 (ix2 p k) + x1 (ix2 p k)) * x2 (ix2 p (0 : Fin 1))) * x3 (ix2 k q)) + x4 (ix2 (0 : Fin 1) q)) 0 := by
  unfold k1_pay1
  simp only [shapeCast_self]
  rw [maximumf_apply, broadcast_apply]
  exact congrArg₂ max (affine_at x0 x1 x2 x3 x4 _ _ _ p q) Ideal.ofBits_zero_f32

/-- The first layer body's stored value read at row p and column q: the same clamped affine stage (this body reads its
    second block without the identity cast the other two apply). -/
theorem k0_pay1_at (x0 x1 : Vec Ideal S4000x128 .f32) (x2 : Vec Ideal S4000x1 .f32) (x3 : Vec Ideal S128x128 .f32)
    (x4 : Vec Ideal S1x128 .f32) (p : Fin 4000) (q : Fin 128) :
    k0_pay1 (F := Ideal) x0 x1 x2 x3 x4 (ix2 p q)
      = max ((∑ k : Fin 128, ((x0 (ix2 p k) + x1 (ix2 p k)) * x2 (ix2 p (0 : Fin 1))) * x3 (ix2 k q)) + x4 (ix2 (0 : Fin 1) q)) 0 := by
  unfold k0_pay1
  simp only [shapeCast_self]
  rw [maximumf_apply, broadcast_apply]
  exact congrArg₂ max (affine_at x0 x1 x2 x3 x4 _ _ _ p q) Ideal.ofBits_zero_f32

/-- The gate column read at row p: the logistic function of the affine stage's row p against the gate row, summed over
    the 128 lanes, plus the gate's offset (one value shared by every row). -/
theorem k2_pay2_at (x0 x1 : Vec Ideal S4000x128 .f32) (x2 : Vec Ideal S4000x1 .f32) (x3 : Vec Ideal S128x128 .f32)
    (x4 x5 : Vec Ideal S1x128 .f32) (x6 : Vec Ideal S1x1 .f32) (p : Fin 4000) (u : Fin 1) :
    k2_pay2 (F := Ideal) x0 x1 x2 x3 x4 x5 x6 (ix2 p u)
      = Ideal.logistic ((∑ k : Fin 128, k2_pay1 (F := Ideal) x0 x1 x2 x3 x4 (ix2 p k) * x5 (ix2 (0 : Fin 1) k))
          + x6 (ix2 (0 : Fin 1) (0 : Fin 1))) := by
  unfold k2_pay2
  simp only [shapeCast_self]
  generalize k2_pay1 (F := Ideal) x0 x1 x2 x3 x4 = y
  show Ideal.logistic (_ + _) = _
  refine congrArg Ideal.logistic (congrArg₂ (· + ·) ?_ (broadcastTo_11_a1_apply x6 _ p u))
  refine (shapeCast_a_a1_apply _ _ p u).trans ?_
  refine (Ideal.multiReduction_add_single (a := 1) _ _ _ _ _ _).trans ?_
  refine Finset.sum_congr rfl fun (k : Fin 128) _ => ?_
  have e : reduces_S4000x128_S4000.lift (ix1 p) k = ix2 p k := funext fun a => Fin.ext (by
    match a with
    | ⟨0, _⟩ => rfl
    | ⟨1, _⟩ => rfl)
  rw [e, mulf_apply, broadcastTo_1b_ab_apply]

/-- The gated output read at row p and column q: the row's gate value times the affine stage there. -/
theorem k2_pay3_at (x0 x1 : Vec Ideal S4000x128 .f32) (x2 : Vec Ideal S4000x1 .f32) (x3 : Vec Ideal S128x128 .f32)
    (x4 x5 : Vec Ideal S1x128 .f32) (x6 : Vec Ideal S1x1 .f32) (p : Fin 4000) (q : Fin 128) :
    k2_pay3 (F := Ideal) x0 x1 x2 x3 x4 x5 x6 (ix2 p q)
      = k2_pay2 (F := Ideal) x0 x1 x2 x3 x4 x5 x6 (ix2 p (0 : Fin 1)) * k2_pay1 (F := Ideal) x0 x1 x2 x3 x4 (ix2 p q) := by
  unfold k2_pay3
  rw [mulf_apply, broadcastTo_a1_ab_apply]

end Cert.Sage.Payload
end
-- ==== Proof.LayerSpec.lean ====
/-
  The mathematics of one graph-convolution layer, over explicit coordinates and the extended reals.

  A node `n` carries a feature row `h n ·` of width 128 and the sum `a n ·` of its in-neighbours' rows. A layer scales
  the row `a n · + h n ·` by a per-node factor `iv n`, multiplies it by a weight matrix `W` and adds a bias row `br`
  (`affineAt`); the two hidden layers then clamp at zero (`reluAt`). The last layer also produces a per-node gate, the
  logistic function of the row's inner product with a vector `wv` plus an offset `bv` (`gateAt`), and the gated row
  (`weightedAt`). `ofAt` turns a function of two coordinates into an array over a rank-2 shape.
-/
import Idealize.ShloMosaic.PureOps.Ideal
import Idealize.ShloMosaic.Lib.ValueIdx

noncomputable section

namespace Cert.Sage

open Idealize.ShloMosaic Idealize.ShloMosaic.ValueIdx

/-- Arrays of extended reals over a rank-2 shape. -/
abbrev A2 (a b : Nat) : Type := (⟨2, ![a, b]⟩ : Shape).Idx → EReal

/-- An array from a function of its two coordinates. -/
def ofAt {a b : Nat} (f : Fin a → Fin b → EReal) : A2 a b :=
  fun i => f ⟨(i 0).val, idx2_lt0 i⟩ ⟨(i 1).val, idx2_lt1 i⟩

theorem ofAt_ix2 {a b : Nat} (f : Fin a → Fin b → EReal) (p : Fin a) (q : Fin b) : ofAt f (ix2 p q) = f p q := rfl

/-- Row `n` of `(a + h)`, scaled by `iv n`, times column `q` of `W`, plus the bias at `q`. -/
def affineAt (a h : A2 100000 128) (iv : A2 100000 1) (W : A2 128 128) (br : A2 1 128) (n : Fin 100000) (q : Fin 128) : EReal :=
  (∑ k : Fin 128, ((a (ix2 n k) + h (ix2 n k)) * iv (ix2 n (0 : Fin 1))) * W (ix2 k q)) + br (ix2 (0 : Fin 1) q)

/-- A hidden layer's entry: the affine entry clamped at zero. -/
def reluAt (a h : A2 100000 128) (iv : A2 100000 1) (W : A2 128 128) (br : A2 1 128) (n : Fin 100000) (q : Fin 128) : EReal :=
  max (affineAt a h iv W br n q) 0

/-- The last layer's gate at node `n`: the logistic function of the row's inner product with `wv`, plus `bv`. -/
def gateAt (a h : A2 100000 128) (iv : A2 100000 1) (W : A2 128 128) (br wv : A2 1 128) (bv : A2 1 1) (n : Fin 100000) : EReal :=
  Ideal.logistic ((∑ k : Fin 128, affineAt a h iv W br n k * wv (ix2 (0 : Fin 1) k)) + bv (ix2 (0 : Fin 1) (0 : Fin 1)))

/-- The last layer's gated row. -/
def weightedAt (a h : A2 100000 128) (iv : A2 100000 1) (W : A2 128 128) (br wv : A2 1 128) (bv : A2 1 1) (n : Fin 100000) (q : Fin 128) : EReal :=
  gateAt a h iv W br wv bv n * affineAt a h iv W br n q

end Cert.Sage

end
-- ==== Proof.LayerArray0.lean ====
/-
  The first region's output array as one function of the arrays it reads.

  The region visits 25 grid points; point `t` stages rows `4000 t … 4000 t + 3999` of the neighbour sums, the features and the
  scale column, the whole weight matrix and the whole bias row, and writes back rows `4000 t … 4000 t + 3999` of the output.
  What it writes at row `p` of the block is the layer's clamped affine entry of node `4000 t + p`, which reads only that
  node's rows; the 25 blocks tile the output, so the output array ends as the layer's closed form of the whole arrays.
-/
import proofs.«100401_j12841952215815_1_alg».proof.Proof.Gen.KernelIdeal.Frame
import proofs.«100401_j12841952215815_1_alg».proof.Proof.LayerSpec
import Idealize.ShloMosaic.Lib.Pipeline.Value
import Idealize.ShloMosaic.Lib.ValueIdx

set_option maxRecDepth 16384

noncomputable section

namespace Cert.Sage.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the three node-tiled inputs and the output sit at block row `t`, the
    weight matrix and the bias row at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The neighbour-sum window's block at point `t` is rows `4000 t … 4000 t + 3999` of its array. -/
theorem blk0_at (c : Dev nD) (t : Fin cfg0.N) (p : Fin 4000) (k : Fin 128) (n : Fin 100000) (hn : n.val = t.val * 4000 + p.val) :
    (iblk0 V c 0 t : Vec Ideal S4000x128 .f32) (ix2 p k) = (V c main_v23 : S100000x128.Idx → EReal) (ix2 n k) := by
  obtain ⟨e0, e1, -⟩ := idx_facts t
  unfold iblk0
  rw [View.read_apply]
  show V c main_v23 _ = V c main_v23 _
  congr 1
  funext a
  apply Fin.ext
  match a with
  | ⟨0, _⟩ => show win0_0.index t 0 * 4000 + 1 * p.val = n.val; rw [e0, hn]; omega
  | ⟨1, _⟩ => show win0_0.index t 1 * 128 + 1 * k.val = k.val; rw [e1]; omega

/-- The feature window's block at point `t` is rows `4000 t … 4000 t + 3999` of its array. -/
theorem blk1_at (c : Dev nD) (t : Fin cfg0.N) (p : Fin 4000) (k : Fin 128) (n : Fin 100000) (hn : n.val = t.val * 4000 + p.val) :
    (iblk0 V c 1 t : Vec Ideal S4000x128 .f32) (ix2 p k) = (V c main_arg0 : S100000x128.Idx → EReal) (ix2 n k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 4000 + 1 * p.val = n.val; rw [e0, hn]; omega
  | ⟨1, _⟩ => show win0_1.index t 1 * 128 + 1 * k.val = k.val; rw [e1]; omega

/-- The scale column's block at point `t` is rows `4000 t … 4000 t + 3999` of the column. -/
theorem blk2_at (c : Dev nD) (t : Fin cfg0.N) (p : Fin 4000) (u : Fin 1) (n : Fin 100000) (hn : n.val = t.val * 4000 + p.val) :
    (iblk0 V c 2 t : Vec Ideal S4000x1 .f32) (ix2 p u) = (V c main_v8 : S100000x1.Idx → EReal) (ix2 n u) := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t 0 * 4000 + 1 * p.val = n.val; rw [e0, hn]; omega
  | ⟨1, _⟩ => show win0_2.index t 1 * 1 + 1 * u.val = u.val; rw [e1]; omega

/-- The weight window's block is the whole matrix at every point. -/
theorem blk3_at (c : Dev nD) (t : Fin cfg0.N) (k q : Fin 128) :
    (iblk0 V c 3 t : Vec Ideal S128x128 .f32) (ix2 k q) = (V c main_arg4 : S128x128.Idx → EReal) (ix2 k q) := by
  obtain ⟨-, -, -, -, -, -, e0, e1, -⟩ := idx_facts t
  unfold iblk0
  rw [View.read_apply]
  show V c main_arg4 _ = V c main_arg4 _
  congr 1
  funext a
  apply Fin.ext
  match a with
  | ⟨0, _⟩ => show win0_3.index t 0 * 128 + 1 * k.val = k.val; rw [e0]; omega
  | ⟨1, _⟩ => show win0_3.index t 1 * 128 + 1 * q.val = q.val; rw [e1]; omega

/-- The bias window's block is the whole row at every point. -/
theorem blk4_at (c : Dev nD) (t : Fin cfg0.N) (u : Fin 1) (q : Fin 128) :
    (iblk0 V c 4 t : Vec Ideal S1x128 .f32) (ix2 u q) = (V c main_v9 : S1x128.Idx → EReal) (ix2 u q) := by
  obtain ⟨-, -, -, -, -, -, -, -, e0, e1, -⟩ := idx_facts t
  unfold iblk0
  rw [View.read_apply]
  show V c main_v9 _ = V c main_v9 _
  congr 1
  funext a
  apply Fin.ext
  match a with
  | ⟨0, _⟩ => show win0_4.index t 0 * 1 + 1 * u.val = u.val; rw [e0]; omega
  | ⟨1, _⟩ => show win0_4.index t 1 * 128 + 1 * q.val = q.val; rw [e1]; omega

/-- The layer's output array as one function of the arrays the region reads: entry `(n, q)` is the clamped affine entry of
    node `n`. -/
abbrev layerOut (c : Dev nD) : S100000x128.Idx → EReal :=
  ofAt (reluAt (V c main_v23) (V c main_arg0) (V c main_v8) (V c main_arg4) (V c main_v9))

/-- What point `t` writes back is block `t` of `layerOut`: the body's stored value at row `p` of the block reads rows
    `4000 t + p` of the node-tiled inputs, the whole weight matrix and the bias row. `hpay` is the body's stored value read at an
    index. -/
theorem flushed_eq
    (hpay : ∀ (x0 x1 : Vec Ideal S4000x128 .f32) (x2 : Vec Ideal S4000x1 .f32) (x3 : Vec Ideal S128x128 .f32) (x4 : Vec Ideal S1x128 .f32)
      (p : Fin 4000) (q : Fin 128), k0_pay1 (F := Ideal) x0 x1 x2 x3 x4 (ix2 p q)
        = max ((∑ k : Fin 128, ((x0 (ix2 p k) + x1 (ix2 p k)) * x2 (ix2 p (0 : Fin 1))) * x3 (ix2 k q)) + x4 (ix2 (0 : Fin 1) q)) 0)
    (c : Dev nD) (t : Fin cfg0.N) :
    (dat0 V c).flushed 5 t = ((cfg0.win 5).blk t).view.read (Elt Ideal) (layerOut V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S4000x1) hz, View.ld_unit_zero (S := S128x128) hz,
    View.ld_unit_zero (S := S1x128) hz]
  funext y
  obtain ⟨p, q, rfl⟩ : ∃ (p : Fin 4000) (q : Fin 128), y = ix2 p q := ⟨y 0, y 1, eq_ix2 y⟩
  have ht : t.val < 25 := by have h := t.isLt; have e : cfg0.N = 25 := N_0; omega
  obtain ⟨n, hn⟩ : ∃ n : Fin 100000, n.val = t.val * 4000 + p.val := ⟨⟨t.val * 4000 + p.val, by have := p.isLt; omega⟩, rfl⟩
  obtain ⟨-, -, -, -, -, -, -, -, -, -, e0, e1⟩ := idx_facts t
  have hemb : ((cfg0.win 5).blk t).view.emb (ix2 p q) = (ix2 n q : S100000x128.Idx) := by
    funext a
    apply Fin.ext
    match a with
    | ⟨0, _⟩ => show win0_5.index t 0 * 4000 + 1 * p.val = n.val; rw [e0, hn]; omega
    | ⟨1, _⟩ => show win0_5.index t 1 * 128 + 1 * q.val = q.val; rw [e1]; omega
  show k0_pay1 (F := Ideal) (iblk0 V c 0 t) (iblk0 V c 1 t) (iblk0 V c 2 t) (iblk0 V c 3 t) (iblk0 V c 4 t) (ix2 p q)
    = layerOut V c (((cfg0.win 5).blk t).view.emb (ix2 p q))
  rw [hemb]
  refine (hpay (iblk0 V c 0 t) (iblk0 V c 1 t) (iblk0 V c 2 t) (iblk0 V c 3 t) (iblk0 V c 4 t) p q).trans ?_
  refine Eq.trans ?_ (ofAt_ix2 (reluAt (V c main_v23) (V c main_arg0) (V c main_v8) (V c main_arg4) (V c main_v9)) n q).symm
  unfold reluAt affineAt
  refine congrArg (fun z : EReal => max z 0) ?_
  refine congrArg₂ (fun z w : EReal => z + w) (Finset.sum_congr rfl fun k _ => ?_) (blk4_at V c t 0 q)
  rw [blk0_at V c t p k n hn, blk1_at V c t p k n hn, blk2_at V c t p 0 n hn, blk3_at V c t k q]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- The 25 row blocks tile the output array: node `n` is written by point `n / 4000`. -/
theorem cover (i : S100000x128.Idx) : ∃ t : Fin cfg0.N, (cfg0.win 5).flush t = true ∧ i ∈ ((cfg0.win 5).blk t).view.set := by
  have hi0 : (i 0).val < 100000 := idx2_lt0 i
  have hi1 : (i 1).val < 128 := idx2_lt1 i
  have hN : cfg0.N = 25 := N_0
  let t : Fin cfg0.N := ⟨(i 0).val / 4000, by rw [hN]; omega⟩
  obtain ⟨-, -, -, -, -, -, -, -, -, -, e0, e1⟩ := idx_facts t
  have e0' : win0_5.index t 0 = (i 0).val / 4000 := e0
  refine ⟨t, flush0_5 t, ?_⟩
  rw [mem_blk]
  intro a
  match a with
  | ⟨0, _⟩ => show win0_5.index t 0 * 4000 ≤ (i 0).val ∧ (i 0).val < win0_5.index t 0 * 4000 + 4000; rw [e0']; omega
  | ⟨1, _⟩ => show win0_5.index t 1 * 128 ≤ (i 1).val ∧ (i 1).val < win0_5.index t 1 * 128 + 128; rw [e1]; omega

/-- The output array after the region: `layerOut` of the arrays the region reads. -/
theorem final
    (hpay : ∀ (x0 x1 : Vec Ideal S4000x128 .f32) (x2 : Vec Ideal S4000x1 .f32) (x3 : Vec Ideal S128x128 .f32) (x4 : Vec Ideal S1x128 .f32)
      (p : Fin 4000) (q : Fin 128), k0_pay1 (F := Ideal) x0 x1 x2 x3 x4 (ix2 p q)
        = max ((∑ k : Fin 128, ((x0 (ix2 p k) + x1 (ix2 p k)) * x2 (ix2 p (0 : Fin 1))) * x3 (ix2 k q)) + x4 (ix2 (0 : Fin 1) q)) 0)
    (c : Dev nD) : (dat0 V c).arrAt 5 cfg0.N = layerOut V c :=
  (dat0 V c).arrAt_eq_of_cover 5 (layerOut V c) (fun t _ => flushed_eq V hpay c t) cover

end Cert.Sage.Region0

end
-- ==== Proof.LayerArray1.lean ====
/-
  The second region's output array as one function of the arrays it reads.

  The region visits 25 grid points; point `t` stages rows `4000 t … 4000 t + 3999` of the neighbour sums, the features and the
  scale column, the whole weight matrix and the whole bias row, and writes back rows `4000 t … 4000 t + 3999` of the output.
  What it writes at row `p` of the block is the layer's clamped affine entry of node `4000 t + p`, which reads only that
  node's rows; the 25 blocks tile the output, so the output array ends as the layer's closed form of the whole arrays.
-/
import proofs.«100401_j12841952215815_1_alg».proof.Proof.Gen.KernelIdeal.Frame
import proofs.«100401_j12841952215815_1_alg».proof.Proof.LayerSpec
import Idealize.ShloMosaic.Lib.Pipeline.Value
import Idealize.ShloMosaic.Lib.ValueIdx

set_option maxRecDepth 16384

noncomputable section

namespace Cert.Sage.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the three node-tiled inputs and the output sit at block row `t`, the
    weight matrix and the bias row at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour-sum window's block at point `t` is rows `4000 t … 4000 t + 3999` of its array. -/
theorem blk0_at (c : Dev nD) (t : Fin cfg1.N) (p : Fin 4000) (k : Fin 128) (n : Fin 100000) (hn : n.val = t.val * 4000 + p.val) :
    (iblk1 V c 0 t : Vec Ideal S4000x128 .f32) (ix2 p k) = (V c main_v34 : S100000x128.Idx → EReal) (ix2 n k) := by
  obtain ⟨e0, e1, -⟩ := idx_facts t
  unfold iblk1
  rw [View.read_apply]
  show V c main_v34 _ = V c main_v34 _
  congr 1
  funext a
  apply Fin.ext
  match a with
  | ⟨0, _⟩ => show win1_0.index t 0 * 4000 + 1 * p.val = n.val; rw [e0, hn]; omega
  | ⟨1, _⟩ => show win1_0.index t 1 * 128 + 1 * k.val = k.val; rw [e1]; omega

/-- The feature window's block at point `t` is rows `4000 t … 4000 t + 3999` of its array. -/
theorem blk1_at (c : Dev nD) (t : Fin cfg1.N) (p : Fin 4000) (k : Fin 128) (n : Fin 100000) (hn : n.val = t.val * 4000 + p.val) :
    (iblk1 V c 1 t : Vec Ideal S4000x128 .f32) (ix2 p k) = (V c main_v24 : S100000x128.Idx → EReal) (ix2 n k) := by
  obtain ⟨-, -, e0, e1, -⟩ := idx_facts t
  unfold iblk1
  rw [View.read_apply]
  show V c main_v24 _ = V c main_v24 _
  congr 1
  funext a
  apply Fin.ext
  match a with
  | ⟨0, _⟩ => show win1_1.index t 0 * 4000 + 1 * p.val = n.val; rw [e0, hn]; omega
  | ⟨1, _⟩ => show win1_1.index t 1 * 128 + 1 * k.val = k.val; rw [e1]; omega

/-- The scale column's block at point `t` is rows `4000 t … 4000 t + 3999` of the column. -/
theorem blk2_at (c : Dev nD) (t : Fin cfg1.N) (p : Fin 4000) (u : Fin 1) (n : Fin 100000) (hn : n.val = t.val * 4000 + p.val) :
    (iblk1 V c 2 t : Vec Ideal S4000x1 .f32) (ix2 p u) = (V c main_v8 : S100000x1.Idx → EReal) (ix2 n u) := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t 0 * 4000 + 1 * p.val = n.val; rw [e0, hn]; omega
  | ⟨1, _⟩ => show win1_2.index t 1 * 1 + 1 * u.val = u.val; rw [e1]; omega

/-- The weight window's block is the whole matrix at every point. -/
theorem blk3_at (c : Dev nD) (t : Fin cfg1.N) (k q : Fin 128) :
    (iblk1 V c 3 t : Vec Ideal S128x128 .f32) (ix2 k q) = (V c main_arg6 : S128x128.Idx → EReal) (ix2 k q) := by
  obtain ⟨-, -, -, -, -, -, e0, e1, -⟩ := idx_facts t
  unfold iblk1
  rw [View.read_apply]
  show V c main_arg6 _ = V c main_arg6 _
  congr 1
  funext a
  apply Fin.ext
  match a with
  | ⟨0, _⟩ => show win1_3.index t 0 * 128 + 1 * k.val = k.val; rw [e0]; omega
  | ⟨1, _⟩ => show win1_3.index t 1 * 128 + 1 * q.val = q.val; rw [e1]; omega

/-- The bias window's block is the whole row at every point. -/
theorem blk4_at (c : Dev nD) (t : Fin cfg1.N) (u : Fin 1) (q : Fin 128) :
    (iblk1 V c 4 t : Vec Ideal S1x128 .f32) (ix2 u q) = (V c main_v10 : S1x128.Idx → EReal) (ix2 u q) := by
  obtain ⟨-, -, -, -, -, -, -, -, e0, e1, -⟩ := idx_facts t
  unfold iblk1
  rw [View.read_apply]
  show V c main_v10 _ = V c main_v10 _
  congr 1
  funext a
  apply Fin.ext
  match a with
  | ⟨0, _⟩ => show win1_4.index t 0 * 1 + 1 * u.val = u.val; rw [e0]; omega
  | ⟨1, _⟩ => show win1_4.index t 1 * 128 + 1 * q.val = q.val; rw [e1]; omega

/-- The layer's output array as one function of the arrays the region reads: entry `(n, q)` is the clamped affine entry of
    node `n`. -/
abbrev layerOut (c : Dev nD) : S100000x128.Idx → EReal :=
  ofAt (reluAt (V c main_v34) (V c main_v24) (V c main_v8) (V c main_arg6) (V c main_v10))

/-- What point `t` writes back is block `t` of `layerOut`: the body's stored value at row `p` of the block reads rows
    `4000 t + p` of the node-tiled inputs, the whole weight matrix and the bias row. `hpay` is the body's stored value read at an
    index. -/
theorem flushed_eq
    (hpay : ∀ (x0 x1 : Vec Ideal S4000x128 .f32) (x2 : Vec Ideal S4000x1 .f32) (x3 : Vec Ideal S128x128 .f32) (x4 : Vec Ideal S1x128 .f32)
      (p : Fin 4000) (q : Fin 128), k1_pay1 (F := Ideal) x0 x1 x2 x3 x4 (ix2 p q)
        = max ((∑ k : Fin 128, ((x0 (ix2 p k) + x1 (ix2 p k)) * x2 (ix2 p (0 : Fin 1))) * x3 (ix2 k q)) + x4 (ix2 (0 : Fin 1) q)) 0)
    (c : Dev nD) (t : Fin cfg1.N) :
    (dat1 V c).flushed 5 t = ((cfg1.win 5).blk t).view.read (Elt Ideal) (layerOut V c) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S128x128) hz,
    View.ld_unit_zero (S := S1x128) hz]
  funext y
  obtain ⟨p, q, rfl⟩ : ∃ (p : Fin 4000) (q : Fin 128), y = ix2 p q := ⟨y 0, y 1, eq_ix2 y⟩
  have ht : t.val < 25 := by have h := t.isLt; have e : cfg1.N = 25 := N_1; omega
  obtain ⟨n, hn⟩ : ∃ n : Fin 100000, n.val = t.val * 4000 + p.val := ⟨⟨t.val * 4000 + p.val, by have := p.isLt; omega⟩, rfl⟩
  obtain ⟨-, -, -, -, -, -, -, -, -, -, e0, e1⟩ := idx_facts t
  have hemb : ((cfg1.win 5).blk t).view.emb (ix2 p q) = (ix2 n q : S100000x128.Idx) := by
    funext a
    apply Fin.ext
    match a with
    | ⟨0, _⟩ => show win1_5.index t 0 * 4000 + 1 * p.val = n.val; rw [e0, hn]; omega
    | ⟨1, _⟩ => show win1_5.index t 1 * 128 + 1 * q.val = q.val; rw [e1]; omega
  show k1_pay1 (F := Ideal) (iblk1 V c 0 t) (iblk1 V c 1 t) (iblk1 V c 2 t) (iblk1 V c 3 t) (iblk1 V c 4 t) (ix2 p q)
    = layerOut V c (((cfg1.win 5).blk t).view.emb (ix2 p q))
  rw [hemb]
  refine (hpay (iblk1 V c 0 t) (iblk1 V c 1 t) (iblk1 V c 2 t) (iblk1 V c 3 t) (iblk1 V c 4 t) p q).trans ?_
  refine Eq.trans ?_ (ofAt_ix2 (reluAt (V c main_v34) (V c main_v24) (V c main_v8) (V c main_arg6) (V c main_v10)) n q).symm
  unfold reluAt affineAt
  refine congrArg (fun z : EReal => max z 0) ?_
  refine congrArg₂ (fun z w : EReal => z + w) (Finset.sum_congr rfl fun k _ => ?_) (blk4_at V c t 0 q)
  rw [blk0_at V c t p k n hn, blk1_at V c t p k n hn, blk2_at V c t p 0 n hn, blk3_at V c t k q]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v35).slice (win1_5.rect t)).set ↔ _
  rw [View.set_slice_whole, Rect.mem_set_unit]
  exact Iff.rfl

/-- The 25 row blocks tile the output array: node `n` is written by point `n / 4000`. -/
theorem cover (i : S100000x128.Idx) : ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 25 := N_1
  let t : Fin cfg1.N := ⟨(i 0).val / 4000, by rw [hN]; omega⟩
  obtain ⟨-, -, -, -, -, -, -, -, -, -, e0, e1⟩ := idx_facts t
  have e0' : win1_5.index t 0 = (i 0).val / 4000 := e0
  refine ⟨t, flush1_5 t, ?_⟩
  rw [mem_blk]
  intro a
  match a with
  | ⟨0, _⟩ => show win1_5.index t 0 * 4000 ≤ (i 0).val ∧ (i 0).val < win1_5.index t 0 * 4000 + 4000; rw [e0']; omega
  | ⟨1, _⟩ => show win1_5.index t 1 * 128 ≤ (i 1).val ∧ (i 1).val < win1_5.index t 1 * 128 + 128; rw [e1]; omega

/-- The output array after the region: `layerOut` of the arrays the region reads. -/
theorem final
    (hpay : ∀ (x0 x1 : Vec Ideal S4000x128 .f32) (x2 : Vec Ideal S4000x1 .f32) (x3 : Vec Ideal S128x128 .f32) (x4 : Vec Ideal S1x128 .f32)
      (p : Fin 4000) (q : Fin 128), k1_pay1 (F := Ideal) x0 x1 x2 x3 x4 (ix2 p q)
        = max ((∑ k : Fin 128, ((x0 (ix2 p k) + x1 (ix2 p k)) * x2 (ix2 p (0 : Fin 1))) * x3 (ix2 k q)) + x4 (ix2 (0 : Fin 1) q)) 0)
    (c : Dev nD) : (dat1 V c).arrAt 5 cfg1.N = layerOut V c :=
  (dat1 V c).arrAt_eq_of_cover 5 (layerOut V c) (fun t _ => flushed_eq V hpay c t) cover

end Cert.Sage.Region1

end
-- ==== Proof.FinalArray2.lean ====
/-
  The last region's two output arrays, each as one whole-array function of the arrays the region reads.

  The region runs over 25 grid points. Point t holds rows 4000 t … 4000 t + 3999 of the three node-tiled inputs (the
  neighbour sums, the features and the scale column) and the whole of the weight matrix, the bias row, the gate row and
  the gate offset, and writes back rows 4000 t … 4000 t + 3999 of the gate column and of the gated rows. Read at one
  index, what point t stores at row p is the gate, respectively the gated affine entry, of node n = 4000 t + p; the 25
  row blocks tile each output, so after the last point each output array is that function of the node at every index.
-/
import proofs.«100401_j12841952215815_1_alg».proof.Proof.Gen.KernelIdeal.Frame
import proofs.«100401_j12841952215815_1_alg».proof.Proof.LayerSpec
import proofs.«100401_j12841952215815_1_alg».proof.Proof.PayloadAt
import Idealize.ShloMosaic.Lib.Pipeline.Value
import Idealize.ShloMosaic.Lib.ValueIdx

set_option maxRecDepth 16384

noncomputable section

namespace Cert.Sage.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offset of a whole-buffer access, as a constant function. -/
theorem hz : (![0, 0] : Fin 2 → Nat) = fun _ => 0 := funext fun a => by fin_cases a <;> rfl

/-- The printed index maps over the 25 grid points: the three node-tiled inputs and the two outputs sit at block row t,
    the weight matrix, the bias row, the gate row and the gate offset at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The neighbour-sum window's block at point t is rows 4000 t … 4000 t + 3999 of its array. -/
theorem blk0_at (c : Dev nD) (t : Fin cfg2.N) (p : Fin 4000) (k : Fin 128) (n : Fin 100000) (hn : n.val = t.val * 4000 + p.val) :
    (iblk2 V c 0 t : Vec Ideal S4000x128 .f32) (ix2 p k) = (V c main_v45 : S100000x128.Idx → EReal) (ix2 n k) := by
  obtain ⟨e0, e1, -⟩ := idx_facts t
  unfold iblk2
  rw [View.read_apply]
  show V c main_v45 _ = V c main_v45 _
  congr 1
  funext a
  apply Fin.ext
  match a with
  | ⟨0, _⟩ => show win2_0.index t 0 * 4000 + 1 * p.val = n.val; rw [e0, hn]; omega
  | ⟨1, _⟩ => show win2_0.index t 1 * 128 + 1 * k.val = k.val; rw [e1]; omega

/-- The feature window's block at point t is rows 4000 t … 4000 t + 3999 of its array. -/
theorem blk1_at (c : Dev nD) (t : Fin cfg2.N) (p : Fin 4000) (k : Fin 128) (n : Fin 100000) (hn : n.val = t.val * 4000 + p.val) :
    (iblk2 V c 1 t : Vec Ideal S4000x128 .f32) (ix2 p k) = (V c main_v35 : S100000x128.Idx → EReal) (ix2 n k) := by
  obtain ⟨-, -, e0, e1, -⟩ := idx_facts t
  unfold iblk2
  rw [View.read_apply]
  show V c main_v35 _ = V c main_v35 _
  congr 1
  funext a
  apply Fin.ext
  match a with
  | ⟨0, _⟩ => show win2_1.index t 0 * 4000 + 1 * p.val = n.val; rw [e0, hn]; omega
  | ⟨1, _⟩ => show win2_1.index t 1 * 128 + 1 * k.val = k.val; rw [e1]; omega

/-- The scale column's block at point t is rows 4000 t … 4000 t + 3999 of the column. -/
theorem blk2_at (c : Dev nD) (t : Fin cfg2.N) (p : Fin 4000) (u : Fin 1) (n : Fin 100000) (hn : n.val = t.val * 4000 + p.val) :
    (iblk2 V c 2 t : Vec Ideal S4000x1 .f32) (ix2 p u) = (V c main_v8 : S100000x1.Idx → EReal) (ix2 n u) := by
  obtain ⟨-, -, -, -, e0, e1, -⟩ := idx_facts t
  unfold iblk2
  rw [View.read_apply]
  show V c main_v8 _ = V c main_v8 _
  congr 1
  funext a
  apply Fin.ext
  match a with
  | ⟨0, _⟩ => show win2_2.index t 0 * 4000 + 1 * p.val = n.val; rw [e0, hn]; omega
  | ⟨1, _⟩ => show win2_2.index t 1 * 1 + 1 * u.val = u.val; rw [e1]; omega

/-- The weight window's block is the whole matrix at every point. -/
theorem blk3_at (c : Dev nD) (t : Fin cfg2.N) (k q : Fin 128) :
    (iblk2 V c 3 t : Vec Ideal S128x128 .f32) (ix2 k q) = (V c main_arg8 : S128x128.Idx → EReal) (ix2 k q) := by
  obtain ⟨-, -, -, -, -, -, e0, e1, -⟩ := idx_facts t
  unfold iblk2
  rw [View.read_apply]
  show V c main_arg8 _ = V c main_arg8 _
  congr 1
  funext a
  apply Fin.ext
  match a with
  | ⟨0, _⟩ => show win2_3.index t 0 * 128 + 1 * k.val = k.val; rw [e0]; omega
  | ⟨1, _⟩ => show win2_3.index t 1 * 128 + 1 * q.val = q.val; rw [e1]; omega

/-- The bias window's block is the whole row at every point. -/
theorem blk4_at (c : Dev nD) (t : Fin cfg2.N) (u : Fin 1) (q : Fin 128) :
    (iblk2 V c 4 t : Vec Ideal S1x128 .f32) (ix2 u q) = (V c main_v11 : S1x128.Idx → EReal) (ix2 u q) := by
  obtain ⟨-, -, -, -, -, -, -, -, e0, e1, -⟩ := idx_facts t
  unfold iblk2
  rw [View.read_apply]
  show V c main_v11 _ = V c main_v11 _
  congr 1
  funext a
  apply Fin.ext
  match a with
  | ⟨0, _⟩ => show win2_4.index t 0 * 1 + 1 * u.val = u.val; rw [e0]; omega
  | ⟨1, _⟩ => show win2_4.index t 1 * 128 + 1 * q.val = q.val; rw [e1]; omega

/-- The gate row's block is the whole row at every point. -/
theorem blk5_at (c : Dev nD) (t : Fin cfg2.N) (u : Fin 1) (q : Fin 128) :
    (iblk2 V c 5 t : Vec Ideal S1x128 .f32) (ix2 u q) = (V c main_v12 : S1x128.Idx → EReal) (ix2 u q) := by
  obtain ⟨-, -, -, -, -, -, -, -, -, -, e0, e1, -⟩ := idx_facts t
  unfold iblk2
  rw [View.read_apply]
  show V c main_v12 _ = V c main_v12 _
  congr 1
  funext a
  apply Fin.ext
  match a with
  | ⟨0, _⟩ => show win2_5.index t 0 * 1 + 1 * u.val = u.val; rw [e0]; omega
  | ⟨1, _⟩ => show win2_5.index t 1 * 128 + 1 * q.val = q.val; rw [e1]; omega

/-- The gate offset's block is the single value at every point. -/
theorem blk6_at (c : Dev nD) (t : Fin cfg2.N) (u v : Fin 1) :
    (iblk2 V c 6 t : Vec Ideal S1x1 .f32) (ix2 u v) = (V c main_v13 : S1x1.Idx → EReal) (ix2 u v) := by
  obtain ⟨-, -, -, -, -, -, -, -, -, -, -, -, e0, e1, -⟩ := idx_facts t
  unfold iblk2
  rw [View.read_apply]
  show V c main_v13 _ = V c main_v13 _
  congr 1
  funext a
  apply Fin.ext
  match a with
  | ⟨0, _⟩ => show win2_6.index t 0 * 1 + 1 * u.val = u.val; rw [e0]; omega
  | ⟨1, _⟩ => show win2_6.index t 1 * 1 + 1 * v.val = v.val; rw [e1]; omega

/-- The affine stage of the body at point t, row p, column q, is the affine entry of node 4000 t + p: the stage reads
    rows 4000 t + p of the node-tiled inputs, the whole weight matrix and the bias row. -/
theorem pay1_blocks (c : Dev nD) (t : Fin cfg2.N) (p : Fin 4000) (q : Fin 128) (n : Fin 100000) (hn : n.val = t.val * 4000 + p.val) :
    k2_pay1 (F := Ideal) (iblk2 V c 0 t) (iblk2 V c 1 t) (iblk2 V c 2 t) (iblk2 V c 3 t) (iblk2 V c 4 t) (ix2 p q)
      = affineAt (V c main_v45) (V c main_v35) (V c main_v8) (V c main_arg8) (V c main_v11) n q := by
  refine (Payload.k2_pay1_at (iblk2 V c 0 t) (iblk2 V c 1 t) (iblk2 V c 2 t) (iblk2 V c 3 t) (iblk2 V c 4 t) p q).trans ?_
  unfold affineAt
  refine congrArg₂ (fun z w : EReal => z + w) (Finset.sum_congr rfl fun k _ => ?_) (blk4_at V c t 0 q)
  rw [blk0_at V c t p k n hn, blk1_at V c t p k n hn, blk2_at V c t p 0 n hn, blk3_at V c t k q]

/-- The gate the body computes at point t, row p, is the gate of node 4000 t + p: the logistic function of the node's
    affine row against the gate row, plus the gate offset. -/
theorem pay2_blocks (c : Dev nD) (t : Fin cfg2.N) (p : Fin 4000) (u : Fin 1) (n : Fin 100000) (hn : n.val = t.val * 4000 + p.val) :
    k2_pay2 (F := Ideal) (iblk2 V c 0 t) (iblk2 V c 1 t) (iblk2 V c 2 t) (iblk2 V c 3 t) (iblk2 V c 4 t) (iblk2 V c 5 t) (iblk2 V c 6 t) (ix2 p u)
      = gateAt (V c main_v45) (V c main_v35) (V c main_v8) (V c main_arg8) (V c main_v11) (V c main_v12) (V c main_v13) n := by
  refine (Payload.k2_pay2_at (iblk2 V c 0 t) (iblk2 V c 1 t) (iblk2 V c 2 t) (iblk2 V c 3 t) (iblk2 V c 4 t) (iblk2 V c 5 t) (iblk2 V c 6 t) p u).trans ?_
  unfold gateAt
  refine congrArg Ideal.logistic ?_
  refine congrArg₂ (fun z w : EReal => z + w) (Finset.sum_congr rfl fun k _ => ?_) (blk6_at V c t 0 0)
  rw [pay1_blocks V c t p k n hn, blk5_at V c t 0 k]

/-- The gated entry the body computes at point t, row p, column q, is the gated entry of node 4000 t + p. -/
theorem pay3_blocks (c : Dev nD) (t : Fin cfg2.N) (p : Fin 4000) (q : Fin 128) (n : Fin 100000) (hn : n.val = t.val * 4000 + p.val) :
    k2_pay3 (F := Ideal) (iblk2 V c 0 t) (iblk2 V c 1 t) (iblk2 V c 2 t) (iblk2 V c 3 t) (iblk2 V c 4 t) (iblk2 V c 5 t) (iblk2 V c 6 t) (ix2 p q)
      = weightedAt (V c main_v45) (V c main_v35) (V c main_v8) (V c main_arg8) (V c main_v11) (V c main_v12) (V c main_v13) n q := by
  refine (Payload.k2_pay3_at (iblk2 V c 0 t) (iblk2 V c 1 t) (iblk2 V c 2 t) (iblk2 V c 3 t) (iblk2 V c 4 t) (iblk2 V c 5 t) (iblk2 V c 6 t) p q).trans ?_
  unfold weightedAt
  exact congrArg₂ (fun z w : EReal => z * w) (pay2_blocks V c t p 0 n hn) (pay1_blocks V c t p q n hn)

/-- The gate column as one function of the arrays the region reads: entry (n, 0) is the gate of node n. -/
abbrev gateOut (c : Dev nD) : S100000x1.Idx → EReal :=
  ofAt (fun (n : Fin 100000) (_ : Fin 1) => gateAt (V c main_v45) (V c main_v35) (V c main_v8) (V c main_arg8) (V c main_v11) (V c main_v12) (V c main_v13) n)

/-- The gated rows as one function of the arrays the region reads: entry (n, q) is the gated affine entry of node n. -/
abbrev weightedOut (c : Dev nD) : S100000x128.Idx → EReal :=
  ofAt (weightedAt (V c main_v45) (V c main_v35) (V c main_v8) (V c main_arg8) (V c main_v11) (V c main_v12) (V c main_v13))

/-- What point t writes back to the gate column is block t of gateOut. -/
theorem flushed7_eq (c : Dev nD) (t : Fin cfg2.N) :
    (dat2 V c).flushed 7 t = ((cfg2.win 7).blk t).view.read (Elt Ideal) (gateOut V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S1x1) hz]
  funext y
  obtain ⟨p, u, rfl⟩ : ∃ (p : Fin 4000) (u : Fin 1), y = ix2 p u := ⟨y 0, y 1, eq_ix2 y⟩
  have ht : t.val < 25 := by have h := t.isLt; have e : cfg2.N = 25 := N_2; omega
  obtain ⟨n, hn⟩ : ∃ n : Fin 100000, n.val = t.val * 4000 + p.val := ⟨⟨t.val * 4000 + p.val, by have := p.isLt; omega⟩, rfl⟩
  obtain ⟨-, -, -, -, -, -, -, -, -, -, -, -, -, -, e0, e1, -⟩ := idx_facts t
  have hemb : ((cfg2.win 7).blk t).view.emb (ix2 p u) = (ix2 n u : S100000x1.Idx) := by
    funext a
    apply Fin.ext
    match a with
    | ⟨0, _⟩ => show win2_7.index t 0 * 4000 + 1 * p.val = n.val; rw [e0, hn]; omega
    | ⟨1, _⟩ => show win2_7.index t 1 * 1 + 1 * u.val = u.val; rw [e1]; omega
  show k2_pay2 (F := Ideal) (iblk2 V c 0 t) (iblk2 V c 1 t) (iblk2 V c 2 t) (iblk2 V c 3 t) (iblk2 V c 4 t) (iblk2 V c 5 t) (iblk2 V c 6 t) (ix2 p u)
    = gateOut V c (((cfg2.win 7).blk t).view.emb (ix2 p u))
  rw [hemb]
  exact pay2_blocks V c t p u n hn

/-- What point t writes back to the gated rows is block t of weightedOut. -/
theorem flushed8_eq (c : Dev nD) (t : Fin cfg2.N) :
    (dat2 V c).flushed 8 t = ((cfg2.win 8).blk t).view.read (Elt Ideal) (weightedOut V c) := by
  show (cfg2.win 8).cut (grid2.coords t) ((dat2 V c).after 8 t) = _
  rw [after2_8]
  unfold out2_8
  rw [View.canon_unit_zero hz]
  simp only [View.ld_unit_zero (S := S4000x128) hz, View.ld_unit_zero (S := S4000x1) hz, View.ld_unit_zero (S := S128x128) hz,
    View.ld_unit_zero (S := S1x128) hz, View.ld_unit_zero (S := S1x1) hz]
  funext y
  obtain ⟨p, q, rfl⟩ : ∃ (p : Fin 4000) (q : Fin 128), y = ix2 p q := ⟨y 0, y 1, eq_ix2 y⟩
  have ht : t.val < 25 := by have h := t.isLt; have e : cfg2.N = 25 := N_2; omega
  obtain ⟨n, hn⟩ : ∃ n : Fin 100000, n.val = t.val * 4000 + p.val := ⟨⟨t.val * 4000 + p.val, by have := p.isLt; omega⟩, rfl⟩
  obtain ⟨-, -, -, -, -, -, -, -, -, -, -, -, -, -, -, -, e0, e1⟩ := idx_facts t
  have hemb : ((cfg2.win 8).blk t).view.emb (ix2 p q) = (ix2 n q : S100000x128.Idx) := by
    funext a
    apply Fin.ext
    match a with
    | ⟨0, _⟩ => show win2_8.index t 0 * 4000 + 1 * p.val = n.val; rw [e0, hn]; omega
    | ⟨1, _⟩ => show win2_8.index t 1 * 128 + 1 * q.val = q.val; rw [e1]; omega
  show k2_pay3 (F := Ideal) (iblk2 V c 0 t) (iblk2 V c 1 t) (iblk2 V c 2 t) (iblk2 V c 3 t) (iblk2 V c 4 t) (iblk2 V c 5 t) (iblk2 V c 6 t) (ix2 p q)
    = weightedOut V c (((cfg2.win 8).blk t).view.emb (ix2 p q))
  rw [hemb]
  exact pay3_blocks V c t p q n hn

/-- An index of the gate column is in point t's block iff each coordinate is in the block's range on its axis. -/
theorem mem_blk7 (t : Fin cfg2.N) (i : S100000x1.Idx) :
    i ∈ ((cfg2.win 7).blk t).view.set ↔ ∀ a : Fin 2, win2_7.index t a * S4000x1.size a ≤ (i a).val ∧ (i a).val < win2_7.index t a * S4000x1.size a + S4000x1.size a := by
  show i ∈ ((View.whole main_v46_0).slice (win2_7.rect t)).set ↔ _
  rw [View.set_slice_whole, Rect.mem_set_unit]
  exact Iff.rfl

/-- An index of the gated rows is in point t's block iff each coordinate is in the block's range on its axis. -/
theorem mem_blk8 (t : Fin cfg2.N) (i : S100000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v46_1).slice (win2_8.rect t)).set ↔ _
  rw [View.set_slice_whole, Rect.mem_set_unit]
  exact Iff.rfl

/-- The 25 row blocks tile the gate column: node n is written by point n / 4000. -/
theorem cover7 (i : S100000x1.Idx) : ∃ t : Fin cfg2.N, (cfg2.win 7).flush t = true ∧ i ∈ ((cfg2.win 7).blk t).view.set := by
  have hi0 : (i 0).val < 100000 := idx2_lt0 i
  have hi1 : (i 1).val < 1 := idx2_lt1 i
  have hN : cfg2.N = 25 := N_2
  let t : Fin cfg2.N := ⟨(i 0).val / 4000, by rw [hN]; omega⟩
  obtain ⟨-, -, -, -, -, -, -, -, -, -, -, -, -, -, e0, e1, -⟩ := idx_facts t
  have e0' : win2_7.index t 0 = (i 0).val / 4000 := e0
  refine ⟨t, flush2_7 t, ?_⟩
  rw [mem_blk7]
  intro a
  match a with
  | ⟨0, _⟩ => show win2_7.index t 0 * 4000 ≤ (i 0).val ∧ (i 0).val < win2_7.index t 0 * 4000 + 4000; rw [e0']; omega
  | ⟨1, _⟩ => show win2_7.index t 1 * 1 ≤ (i 1).val ∧ (i 1).val < win2_7.index t 1 * 1 + 1; rw [e1]; omega

/-- The 25 row blocks tile the gated rows: node n is written by point n / 4000. -/
theorem cover8 (i : S100000x128.Idx) : ∃ t : Fin cfg2.N, (cfg2.win 8).flush t = true ∧ i ∈ ((cfg2.win 8).blk t).view.set := by
  have hi0 : (i 0).val < 100000 := idx2_lt0 i
  have hi1 : (i 1).val < 128 := idx2_lt1 i
  have hN : cfg2.N = 25 := N_2
  let t : Fin cfg2.N := ⟨(i 0).val / 4000, by rw [hN]; omega⟩
  obtain ⟨-, -, -, -, -, -, -, -, -, -, -, -, -, -, -, -, e0, e1⟩ := idx_facts t
  have e0' : win2_8.index t 0 = (i 0).val / 4000 := e0
  refine ⟨t, flush2_8 t, ?_⟩
  rw [mem_blk8]
  intro a
  match a with
  | ⟨0, _⟩ => show win2_8.index t 0 * 4000 ≤ (i 0).val ∧ (i 0).val < win2_8.index t 0 * 4000 + 4000; rw [e0']; omega
  | ⟨1, _⟩ => show win2_8.index t 1 * 128 ≤ (i 1).val ∧ (i 1).val < win2_8.index t 1 * 128 + 128; rw [e1]; omega

/-- The gate column after the region: gateOut of the arrays the region reads. -/
theorem final7 (c : Dev nD) : (dat2 V c).arrAt 7 cfg2.N = gateOut V c :=
  (dat2 V c).arrAt_eq_of_cover 7 (gateOut V c) (fun t _ => flushed7_eq V c t) cover7

/-- The gated rows after the region: weightedOut of the arrays the region reads. -/
theorem final8 (c : Dev nD) : (dat2 V c).arrAt 8 cfg2.N = weightedOut V c :=
  (dat2 V c).arrAt_eq_of_cover 8 (weightedOut V c) (fun t _ => flushed8_eq V c t) cover8

end Cert.Sage.Region2

end
-- ==== Proof.ScalarLaws.lean ====
/-
  The few facts about single extended reals that join the two programs.

  The kernel scales a row by the reciprocal `1 / d` it computed once, where the reference divides the row by `d`. On the
  extended reals the quotient `x / d` is `x · d⁻¹` whenever `d ≠ 0`, and then `1 / d = d⁻¹`, so the two agree for every
  `x`, finite or not, as soon as `d ≠ 0`. Here `d` is an in-degree plus one: the in-degree is zero plus a sum of ones
  over the edges that arrive at the node, hence non-negative, and `d ≥ 1`.
-/
import Idealize.ShloMosaic.PureOps.Ideal

noncomputable section

namespace Cert.Sage

open Idealize.ShloMosaic

/-- The single-precision pattern of `1.0` denotes the extended real `1`. -/
theorem ofBits_one32 : Ideal.ofBits .f32 0x3F800000#32 = 1 := by
  simp [Ideal.ofBits, Ideal.ieee, -EReal.coe_mul]; norm_num

/-- Off zero, the quotient is the product with the inverse. -/
theorem div_of_ne_zero (x d : EReal) (hd : d ≠ 0) : Ideal.div x d = x * d⁻¹ := by
  rw [Ideal.div, if_neg hd]

/-- Scaling by the reciprocal of a non-zero `d` is dividing by `d`. -/
theorem mul_one_div (x d : EReal) (hd : d ≠ 0) : x * Ideal.div 1 d = Ideal.div x d := by
  rw [div_of_ne_zero 1 d hd, div_of_ne_zero x d hd, one_mul]

/-- Zero plus a sum of ones, plus one, is not zero: it is at least one. -/
theorem count_add_one_ne_zero {ι : Type} (S : Finset ι) : (0 : EReal) + ∑ _j ∈ S, (1 : EReal) + 1 ≠ 0 := by
  have h0 : (0 : EReal) ≤ ∑ _j ∈ S, (1 : EReal) := Finset.sum_nonneg fun _ _ => zero_le_one
  have h1 : (0 : EReal) < (0 : EReal) + ∑ _j ∈ S, (1 : EReal) + 1 := by
    rw [zero_add]
    exact lt_of_lt_of_le zero_lt_one (le_add_of_nonneg_left h0)
  exact ne_of_gt h1

/-- The logistic function is the quotient the host spells out. -/
theorem logistic_eq (x : EReal) : Ideal.div 1 (1 + Ideal.exp (-x)) = Ideal.logistic x := rfl

end Cert.Sage

end
-- ==== Proof.LayerBridge.lean ====
import proofs.«100401_j12841952215815_1_alg».proof.Proof.RefAt
import proofs.«100401_j12841952215815_1_alg».proof.Proof.ScalarLaws
import proofs.«100401_j12841952215815_1_alg».proof.Proof.LayerSpec
import Idealize.ShloMosaic.Lib.ValueIdx

/-!
# A layer's closed form equals the reference's stage

The closed form of a layer scales row `n` of `agg + h` by the per-node factor `1 / (deg n + 1)` and
then multiplies by the weight matrix; the reference divides the row by `deg n + 1` and then multiplies.
The in-degree `deg n` is zero plus a sum of ones over the edges arriving at `n`, so `deg n + 1 ≠ 0`, and
on the extended reals `x * (1 / d) = x / d` for every `x` as soon as `d ≠ 0` (no finiteness is needed).
The gate: the logistic function is by definition `1 / (1 + exp (-x))`, which is what the reference
spells out with the constant `1`.
-/

noncomputable section

namespace Cert.Sage.Bridge

open Cert.Sage Cert.Sage.Ref Cert.ReferenceIdeal Cert.ReferenceIdeal.Read Idealize.ShloMosaic
  Idealize.ShloMosaic.ValueIdx

variable (x0 : (⟨S100000x128, .f32⟩ : BufTy).Contents (Elt Ideal)) (x1 x2 : (⟨S1600000, .i32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))

/-- The word of `1.0` is the extended real `1`. -/
theorem one32_eq : one32 = 1 := ofBits_one32

/-- An accumulating scatter of ones into zeros, plus one, is not zero: at every index it is zero plus a
    sum of ones, plus one. -/
theorem scatterAdd_ones_ne {s si su : Shape} (d : ScatterDims s si su) {w : Nat} (x : s.Idx → EReal)
    (idx : IVec si w) (upd : su.Idx → EReal) (i : s.Idx) (hx : x i = 0) (hu : ∀ j, upd j = 1) :
    Ideal.hostScatterAdd d x idx upd i + 1 ≠ 0 := by
  unfold Ideal.hostScatterAdd
  rw [hx, Finset.sum_congr rfl (fun j _ => hu j)]
  exact count_add_one_ne_zero _

/-- The in-degree array is the accumulating scatter of an array of ones into an array of zeros, one update
    per edge, landing at the edge's destination. -/
theorem deg_eq : val_main_v3 (F := Ideal) x2
    = Ideal.hostScatterAdd scatter_S100000_S1600000x1_S1600000_n_0_0_1 (val_main_v1 (F := Ideal))
        (val_main_v2 (F := Ideal) x2) (val_main_v0 (F := Ideal)) := rfl

/-- The in-degree plus one is not zero: the in-degree is zero plus a sum of ones over the arriving edges. -/
theorem deg_ne' (n : Fin 100000) : val_main_v3 (F := Ideal) x2 (ix1 n) + 1 ≠ 0 := by
  have hx : val_main_v1 (F := Ideal) (ix1 n) = 0 := by
    rw [val_main_v1_apply, val_main_cst_0_apply, Ideal.ofBits_def, Ideal.ofBits_zero_f32]
  have hu : ∀ j, val_main_v0 (F := Ideal) j = 1 := fun j => by
    rw [val_main_v0_apply, val_main_cst_apply, Ideal.ofBits_def, ofBits_one32]
  have h := scatterAdd_ones_ne scatter_S100000_S1600000x1_S1600000_n_0_0_1 (val_main_v1 (F := Ideal))
    (val_main_v2 (F := Ideal) x2) (val_main_v0 (F := Ideal)) (ix1 n) hx hu
  rw [deg_eq]
  exact h

/-- The same, with the constant written as the program's word. -/
theorem deg_ne (n : Fin 100000) : val_main_v3 (F := Ideal) x2 (ix1 n) + one32 ≠ 0 := by
  rw [one32_eq]
  exact deg_ne' x2 n

/-- The affine core shared by the three layers: scaling the row by `1 / (deg + 1)` is dividing it by
    `deg + 1`, and the bias row is the bias vector at the column. -/
theorem affine_eq (a h : A2 100000 128) (W : A2 128 128) (b : S128.Idx → EReal)
    (IV : A2 100000 1) (BR : A2 1 128)
    (hIV : ∀ (n : Fin 100000) (u : Fin 1),
      IV (ix2 n u) = Ideal.div one32 (val_main_v3 (F := Ideal) x2 (ix1 n) + one32))
    (hBR : ∀ (u : Fin 1) (q : Fin 128), BR (ix2 u q) = b (ix1 q))
    (n : Fin 100000) (q : Fin 128) :
    affineAt a h IV W BR n q
      = (∑ k : Fin 128, Ideal.div (a (ix2 n k) + h (ix2 n k))
          (val_main_v3 (F := Ideal) x2 (ix1 n) + one32) * W (ix2 k q)) + b (ix1 q) := by
  unfold affineAt
  refine congrArg₂ (fun z w : EReal => z + w) (Finset.sum_congr rfl fun k _ => ?_) (hBR 0 q)
  rw [hIV n 0, one32_eq, mul_one_div _ _ (deg_ne' x2 n)]

/-- Layer 1: the clamped affine closed form is the reference's first hidden array. -/
theorem layer1 (IV : A2 100000 1) (BR : A2 1 128)
    (hIV : ∀ (n : Fin 100000) (u : Fin 1),
      IV (ix2 n u) = Ideal.div one32 (val_main_v3 (F := Ideal) x2 (ix1 n) + one32))
    (hBR : ∀ (u : Fin 1) (q : Fin 128), BR (ix2 u q) = x5 (ix1 q)) :
    ofAt (reluAt (val_main_v13 (F := Ideal) x0 x1 x2) x0 IV x4 BR)
      = val_main_v24 (F := Ideal) x0 x1 x2 x4 x5 := by
  funext i
  obtain ⟨n, q, rfl⟩ : ∃ (n : Fin 100000) (q : Fin 128), i = ix2 n q := ⟨i 0, i 1, eq_ix2 i⟩
  rw [ofAt_ix2, v24_at]
  unfold reluAt
  rw [affine_eq x2 _ _ _ x5 IV BR hIV hBR]

/-- Layer 2: the same with the first hidden array as features. -/
theorem layer2 (IV : A2 100000 1) (BR : A2 1 128)
    (hIV : ∀ (n : Fin 100000) (u : Fin 1),
      IV (ix2 n u) = Ideal.div one32 (val_main_v3 (F := Ideal) x2 (ix1 n) + one32))
    (hBR : ∀ (u : Fin 1) (q : Fin 128), BR (ix2 u q) = x7 (ix1 q)) :
    ofAt (reluAt (val_main_v34 (F := Ideal) x0 x1 x2 x4 x5) (val_main_v24 (F := Ideal) x0 x1 x2 x4 x5)
        IV x6 BR)
      = val_main_v45 (F := Ideal) x0 x1 x2 x4 x5 x6 x7 := by
  funext i
  obtain ⟨n, q, rfl⟩ : ∃ (n : Fin 100000) (q : Fin 128), i = ix2 n q := ⟨i 0, i 1, eq_ix2 i⟩
  rw [ofAt_ix2, v45_at]
  unfold reluAt
  rw [affine_eq x2 _ _ _ x7 IV BR hIV hBR]

/-- Layer 3 without clamp: the affine closed form is the reference's third array, entry by entry. -/
theorem affine3_at (IV : A2 100000 1) (BR : A2 1 128)
    (hIV : ∀ (n : Fin 100000) (u : Fin 1),
      IV (ix2 n u) = Ideal.div one32 (val_main_v3 (F := Ideal) x2 (ix1 n) + one32))
    (hBR : ∀ (u : Fin 1) (q : Fin 128), BR (ix2 u q) = x9 (ix1 q))
    (n : Fin 100000) (q : Fin 128) :
    affineAt (val_main_v55 (F := Ideal) x0 x1 x2 x4 x5 x6 x7)
        (val_main_v45 (F := Ideal) x0 x1 x2 x4 x5 x6 x7) IV x8 BR n q
      = val_main_v65 (F := Ideal) x0 x1 x2 x4 x5 x6 x7 x8 x9 (ix2 n q) := by
  rw [v65_at, affine_eq x2 _ _ _ x9 IV BR hIV hBR]

/-- The gate at a node: the logistic closed form is the quotient the reference spells out. -/
theorem gate_at (IV : A2 100000 1) (BR WV : A2 1 128) (BV : A2 1 1)
    (hIV : ∀ (n : Fin 100000) (u : Fin 1),
      IV (ix2 n u) = Ideal.div one32 (val_main_v3 (F := Ideal) x2 (ix1 n) + one32))
    (hBR : ∀ (u : Fin 1) (q : Fin 128), BR (ix2 u q) = x9 (ix1 q))
    (hWV : ∀ (u : Fin 1) (k : Fin 128), WV (ix2 u k) = x10 (ix2 k (0 : Fin 1)))
    (hBV : ∀ (u u' : Fin 1), BV (ix2 u u') = x11 (ix1 (0 : Fin 1)))
    (n : Fin 100000) (u : Fin 1) :
    gateAt (val_main_v55 (F := Ideal) x0 x1 x2 x4 x5 x6 x7)
        (val_main_v45 (F := Ideal) x0 x1 x2 x4 x5 x6 x7) IV x8 BR WV BV n
      = val_main_v75 (F := Ideal) x0 x1 x2 x4 x5 x6 x7 x8 x9 x10 x11 (ix2 n u) := by
  rw [v75_at, one32_eq, logistic_eq]
  unfold gateAt
  refine congrArg Ideal.logistic
    (congrArg₂ (fun z w : EReal => z + w) (Finset.sum_congr rfl fun k _ => ?_) (hBV 0 0))
  rw [affine3_at x0 x1 x2 x4 x5 x6 x7 x8 x9 IV BR hIV hBR, hWV 0 k]

/-- Layer 3's gate column. -/
theorem layer3_gate (IV : A2 100000 1) (BR WV : A2 1 128) (BV : A2 1 1)
    (hIV : ∀ (n : Fin 100000) (u : Fin 1),
      IV (ix2 n u) = Ideal.div one32 (val_main_v3 (F := Ideal) x2 (ix1 n) + one32))
    (hBR : ∀ (u : Fin 1) (q : Fin 128), BR (ix2 u q) = x9 (ix1 q))
    (hWV : ∀ (u : Fin 1) (k : Fin 128), WV (ix2 u k) = x10 (ix2 k (0 : Fin 1)))
    (hBV : ∀ (u u' : Fin 1), BV (ix2 u u') = x11 (ix1 (0 : Fin 1))) :
    ofAt (fun (n : Fin 100000) (_ : Fin 1) =>
        gateAt (val_main_v55 (F := Ideal) x0 x1 x2 x4 x5 x6 x7)
          (val_main_v45 (F := Ideal) x0 x1 x2 x4 x5 x6 x7) IV x8 BR WV BV n)
      = val_main_v75 (F := Ideal) x0 x1 x2 x4 x5 x6 x7 x8 x9 x10 x11 := by
  funext i
  obtain ⟨n, u, rfl⟩ : ∃ (n : Fin 100000) (u : Fin 1), i = ix2 n u := ⟨i 0, i 1, eq_ix2 i⟩
  rw [ofAt_ix2]
  exact gate_at x0 x1 x2 x4 x5 x6 x7 x8 x9 x10 x11 IV BR WV BV hIV hBR hWV hBV n u

/-- Layer 3's gated rows: the result array. -/
theorem layer3_weighted (IV : A2 100000 1) (BR WV : A2 1 128) (BV : A2 1 1)
    (hIV : ∀ (n : Fin 100000) (u : Fin 1),
      IV (ix2 n u) = Ideal.div one32 (val_main_v3 (F := Ideal) x2 (ix1 n) + one32))
    (hBR : ∀ (u : Fin 1) (q : Fin 128), BR (ix2 u q) = x9 (ix1 q))
    (hWV : ∀ (u : Fin 1) (k : Fin 128), WV (ix2 u k) = x10 (ix2 k (0 : Fin 1)))
    (hBV : ∀ (u u' : Fin 1), BV (ix2 u u') = x11 (ix1 (0 : Fin 1))) :
    ofAt (weightedAt (val_main_v55 (F := Ideal) x0 x1 x2 x4 x5 x6 x7)
        (val_main_v45 (F := Ideal) x0 x1 x2 x4 x5 x6 x7) IV x8 BR WV BV)
      = val_main_v77 (F := Ideal) x0 x1 x2 x4 x5 x6 x7 x8 x9 x10 x11 := by
  funext i
  obtain ⟨n, q, rfl⟩ : ∃ (n : Fin 100000) (q : Fin 128), i = ix2 n q := ⟨i 0, i 1, eq_ix2 i⟩
  rw [ofAt_ix2, v77_at]
  unfold weightedAt
  rw [gate_at x0 x1 x2 x4 x5 x6 x7 x8 x9 x10 x11 IV BR WV BV hIV hBR hWV hBV n 0,
    affine3_at x0 x1 x2 x4 x5 x6 x7 x8 x9 IV BR hIV hBR]

end Cert.Sage.Bridge
-- ==== Proof.KernelValue.lean ====
/-
  The kernel program's result, in the reference's terms.

  Region by region: a region's output array is the layer's closed form of the arrays it reads; those are the reference's
  neighbour sums and previous layer (the host stretches between the regions are the reference's own gather and
  scatter-add, applied to equal operands), the scale column `1 / (deg + 1)` and the layer's weights and bias; and the
  closed form of those is the reference's layer, because scaling a row by `1 / d` is dividing it by `d` when `d ≠ 0`.
  After the third region the last stretch pools the gated rows and the gates by graph and applies the head, exactly as
  the reference does.
-/
import proofs.«100401_j12841952215815_1_alg».proof.Proof.KernelBoundary
import proofs.«100401_j12841952215815_1_alg».proof.Proof.SmallBuffers
import proofs.«100401_j12841952215815_1_alg».proof.Proof.PayloadAt
import proofs.«100401_j12841952215815_1_alg».proof.Proof.LayerArray0
import proofs.«100401_j12841952215815_1_alg».proof.Proof.LayerArray1
import proofs.«100401_j12841952215815_1_alg».proof.Proof.FinalArray2
import proofs.«100401_j12841952215815_1_alg».proof.Proof.LayerBridge

set_option maxRecDepth 16384

noncomputable section

namespace Cert.Sage.Value

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read (val_main_v3 val_main_v13 val_main_v24 val_main_v34 val_main_v45 val_main_v55 val_main_v65 val_main_v75 val_main_v77 val_main_v89)
open Cert.Sage.Ref (one32)
open Cert.Sage.Boundary Cert.Sage.Small

variable (m : (ℓ : Loc nD τ sig) → Buf (Elt Ideal) ℓ) (ρ : Dev nD → PrngReg) (c : Dev nD)

/-- The first region leaves the reference's first hidden layer in its output array. -/
theorem w2_v24 : W2 m ρ c (Proc.devRef .tc main_v24) = val_main_v24 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W2_arr m ρ c 5).trans ?_
  refine (Region0.final (V1 m ρ) Payload.k0_pay1_at c).trans ?_
  show ofAt (reluAt (W1 m ρ c (Proc.devRef .tc main_v23)) (W1 m ρ c (Proc.devRef .tc main_arg0)) (W1 m ρ c (Proc.devRef .tc main_v8)) (W1 m ρ c (Proc.devRef .tc main_arg4)) (W1 m ρ c (Proc.devRef .tc main_v9))) = _
  rw [w1_v23 m ρ c, w1_arg0 m ρ c, w1_arg4 m ρ c]
  exact Bridge.layer1 _ _ _ _ _ _ _ (w1_v8_at m ρ c) (w1_v9_at m ρ c)

/-- The second stretch gathers and scatter-adds that layer: the reference's second neighbour sums. -/
theorem w3_v34 : W3 m ρ c (Proc.devRef .tc main_v34) = val_main_v34 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v34) = _
  after_results_simp
  rw [w2_v24 m ρ c, (keep_arg1 m ρ c).2.1, (keep_arg2 m ρ c).2.1]
  rfl

/-- and leaves the first layer where it was. -/
theorem w3_v24 : W3 m ρ c (Proc.devRef .tc main_v24) = val_main_v24 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  show StableHlo.after hostOps1 (W2 m ρ c) (Proc.devRef .tc main_v24) = _
  carried_by (w2_v24 m ρ c)

/-- The second region leaves the reference's second hidden layer. -/
theorem w4_v35 : W4 m ρ c (Proc.devRef .tc main_v35) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W4_arr m ρ c 5).trans ?_
  refine (Region1.final (V3 m ρ) Payload.k1_pay1_at c).trans ?_
  show ofAt (reluAt (W3 m ρ c (Proc.devRef .tc main_v34)) (W3 m ρ c (Proc.devRef .tc main_v24)) (W3 m ρ c (Proc.devRef .tc main_v8)) (W3 m ρ c (Proc.devRef .tc main_arg6)) (W3 m ρ c (Proc.devRef .tc main_v10))) = _
  rw [w3_v34 m ρ c, w3_v24 m ρ c, w3_arg6 m ρ c]
  exact Bridge.layer2 _ _ _ _ _ _ _ _ _ (w3_v8_at m ρ c) (w3_v10_at m ρ c)

/-- The third stretch: the reference's third neighbour sums, the second layer left in place. -/
theorem w5_v45 : W5 m ρ c (Proc.devRef .tc main_v45) = val_main_v55 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v45) = _
  after_results_simp
  rw [w4_v35 m ρ c, (keep_arg1 m ρ c).2.2.2, (keep_arg2 m ρ c).2.2.2]
  rfl
theorem w5_v35 : W5 m ρ c (Proc.devRef .tc main_v35) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v35) = _
  carried_by (w4_v35 m ρ c)

/-- The third region leaves the reference's gates and gated rows. -/
theorem w6_gate : W6 m ρ c (Proc.devRef .tc main_v46_0) = val_main_v75 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 7).trans ?_
  refine (Region2.final7 (V5 m ρ) c).trans ?_
  show ofAt (fun (n : Fin 100000) (_ : Fin 1) => gateAt (W5 m ρ c (Proc.devRef .tc main_v45)) (W5 m ρ c (Proc.devRef .tc main_v35)) (W5 m ρ c (Proc.devRef .tc main_v8)) (W5 m ρ c (Proc.devRef .tc main_arg8)) (W5 m ρ c (Proc.devRef .tc main_v11)) (W5 m ρ c (Proc.devRef .tc main_v12)) (W5 m ρ c (Proc.devRef .tc main_v13)) n) = _
  rw [w5_v45 m ρ c, w5_v35 m ρ c, w5_arg8 m ρ c]
  exact Bridge.layer3_gate _ _ _ _ _ _ _ _ _ _ _ _ _ _ _ (w5_v8_at m ρ c) (w5_v11_at m ρ c) (w5_v12_at m ρ c) (w5_v13_at m ρ c)
theorem w6_weighted : W6 m ρ c (Proc.devRef .tc main_v46_1) = val_main_v77 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 8).trans ?_
  refine (Region2.final8 (V5 m ρ) c).trans ?_
  show ofAt (weightedAt (W5 m ρ c (Proc.devRef .tc main_v45)) (W5 m ρ c (Proc.devRef .tc main_v35)) (W5 m ρ c (Proc.devRef .tc main_v8)) (W5 m ρ c (Proc.devRef .tc main_arg8)) (W5 m ρ c (Proc.devRef .tc main_v11)) (W5 m ρ c (Proc.devRef .tc main_v12)) (W5 m ρ c (Proc.devRef .tc main_v13))) = _
  rw [w5_v45 m ρ c, w5_v35 m ρ c, w5_arg8 m ρ c]
  exact Bridge.layer3_weighted _ _ _ _ _ _ _ _ _ _ _ _ _ _ _ (w5_v8_at m ρ c) (w5_v11_at m ρ c) (w5_v12_at m ρ c) (w5_v13_at m ρ c)

/-- The last stretch pools by graph and applies the head: the reference's result. -/
theorem w7_result : W7 m ρ c (Proc.devRef .tc main_v58) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps3 (W6 m ρ c) (Proc.devRef .tc main_v58) = _
  after_results_simp
  rw [w6_weighted m ρ c, w6_gate m ρ c, w6_arg3 m ρ c, w6_arg12 m ρ c, w6_arg13 m ρ c]
  rfl

end Cert.Sage.Value

end
-- ==== Proof.lean ====
/-
  The certificate: a three-layer graph network, computed by three tiled regions among host operations, against its plain
  reference, over the extended reals.

  Frames. The two printed kernel programs' frames are the generated several-region frames. The reference has no kernel:
  its frame is its run with the result dropped.

  Idealization. The idealized kernel program is the printed program read at the ideal instance: no operation was
  rewritten, so nothing is owed.

  Values. Both programs compute the in-degree and the per-layer neighbour sums with the same gather and scatter-add, pool
  with the same scatter-adds and apply the same head. They differ inside a layer only: the kernel multiplies the row
  `agg + h` by the reciprocal `1 / (deg + 1)` it computed once, the reference divides the row by `deg + 1`; the kernel takes
  the gate's inner product as a lane sum, the reference as a matrix product with a one-column matrix; the kernel's logistic is
  one operation, the reference's is `1 / (1 + exp (-x))`. On the extended reals `x · (1 / d) = x / d` for every `x` once
  `d ≠ 0`, and `deg + 1 ≥ 1` because an in-degree is a sum of ones; the other two are the same expressions. So the
  kernel program's result array is, region by region, the reference's stage of the same arguments.
-/
import proofs.«100401_j12841952215815_1_alg».proof.Defs
import proofs.«100401_j12841952215815_1_alg».proof.Proof.Gen.Kernel
import proofs.«100401_j12841952215815_1_alg».proof.Proof.Gen.Kernel.Frame
import proofs.«100401_j12841952215815_1_alg».proof.Proof.Gen.KernelIdeal
import proofs.«100401_j12841952215815_1_alg».proof.Proof.Gen.KernelIdeal.Frame
import proofs.«100401_j12841952215815_1_alg».proof.Proof.Gen.ReferenceIdeal
import proofs.«100401_j12841952215815_1_alg».proof.Proof.Gen.ReferenceIdeal.Run
import proofs.«100401_j12841952215815_1_alg».proof.Proof.Gen.ReferenceIdeal.Read
import proofs.«100401_j12841952215815_1_alg».proof.Proof.Gen.Pre_finite_inputs
import proofs.«100401_j12841952215815_1_alg».proof.Proof.KernelRun
import proofs.«100401_j12841952215815_1_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's result stage of the kernel program's
    arguments: the kernel program by the value chain, the reference by its run, its arguments rewritten by the agreement. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (Cert.Sage.Value.w7_result m ρ c), (h c).2⟩)
      (Cert.Sage.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v89_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
